-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16x64 .f32) (main_arg6 : FVec F S16x64 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S64x128 .f32) (main_arg3 : FVec F S64x128 .f32) (main_arg4 : FVec F S64 .f32) (main_arg5 : FVec F S16x64 .f32) (main_arg6 : FVec F S16x64 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x640000 : Shape := ⟨2, ![1, 640000]⟩
abbrev S640000 : Shape := ⟨1, ![640000]⟩
abbrev S128x64 : Shape := ⟨2, ![128, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S640000x1 : Shape := ⟨2, ![640000, 1]⟩
abbrev S640000x64 : Shape := ⟨2, ![640000, 64]⟩
abbrev S1x64 : Shape := ⟨2, ![1, 64]⟩
abbrev S64x16 : Shape := ⟨2, ![64, 16]⟩
abbrev S100000x16 : Shape := ⟨2, ![100000, 16]⟩
abbrev S10000x16 : Shape := ⟨2, ![10000, 16]⟩
abbrev S640000x16 : Shape := ⟨2, ![640000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 50
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S16x64, .f32⟩
  | .hbm, ⟨6, _⟩ => ⟨S16x64, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S128x64, .f32⟩
  | .hbm, ⟨13, _⟩ => ⟨S128x64, .f32⟩
  | .hbm, ⟨14, _⟩ => ⟨S100000x64, .f32⟩
  | .hbm, ⟨15, _⟩ => ⟨S100000x64, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x64, .f32⟩
  | .hbm, ⟨25, _⟩ => ⟨S_, .f32⟩
  | .hbm, ⟨26, _⟩ => ⟨S100000x64, .f32⟩
  | .hbm, ⟨27, _⟩ => ⟨S640000x1, .i32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S64x16, .f32⟩
  | .hbm, ⟨32, _⟩ => ⟨S64x16, .f32⟩
  | .hbm, ⟨33, _⟩ => ⟨S100000x16, .f32⟩
  | .hbm, ⟨34, _⟩ => ⟨S100000x16, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x16, .f32⟩
  | .hbm, ⟨44, _⟩ => ⟨S_, .f32⟩
  | .hbm, ⟨45, _⟩ => ⟨S100000x16, .f32⟩
  | .hbm, ⟨46, _⟩ => ⟨S640000x1, .i32⟩
  | .hbm, ⟨47, _⟩ => ⟨S100000x16, .f32⟩
  | .hbm, ⟨48, _⟩ => ⟨S1x16, .f32⟩
  | .hbm, ⟨49, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S128x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x16, .f32⟩
  | .local _ .vmem, ⟨18, _⟩ => ⟨S64x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S10000x16, .f32⟩
  | .local _ .vmem, ⟨27, _⟩ => ⟨S1x16, .f32⟩
  | .local _ .vmem, ⟨28, _⟩ => ⟨S10000x16, .f32⟩
  | .local _ .vmem, ⟨29, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S64x128_S128x64_1_0 : S64x128.Transposes [1, 0] S128x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S_S640000 : S_.BroadcastsInDim S640000 (![] : Fin 0 → Fin S640000.rank)
  bcast_S640000_S640000x1_0 : S640000.BroadcastsInDim S640000x1 (![0] : Fin 1 → Fin S640000x1.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S16x64_S64x16_1_0 : S16x64.Transposes [1, 0] S64x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  dot_S10000x128_S128x64_S10000x64_1_0_0_1_n_n_wf : DotDims.WF S10000x128 S128x64 S10000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  dot_S10000x64_S64x16_S10000x16_1_0_0_1_n_n_wf : DotDims.WF S10000x64 S64x16 S10000x16 [1] [0] [0] [1] [] []
  gather_S100000x16_S640000x1_S640000x16_1_0_n_n_0_1_116_wf : GatherDims.WF S100000x16 S640000x1 S640000x16 [1] [0] [] [0] [] 1 ![1, 16]
  scatter_S100000x16_S640000x1_S640000x16_1_0_0_1_wf : ScatterDims.WF S100000x16 S640000x1 S640000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x16.size a ≤ S100000x16.size a
  hwx2_4 : ∀ i : grid2.Coords, EltTy.bits .f32 = 32 ∨ (Rect.block (s := S100000x16) S10000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S100000x16.size a
  hwx3_1 : ∀ i : grid3.Coords, EltTy.bits .f32 = 32 ∨ (Rect.block (s := S100000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S640000x1_S640000x16_1_0_n_n_0_1_116 : GatherDims S100000x16 S640000x1 S640000x16 where
  offsetDims := [1]
  collapsedSliceDims := [0]
  operandBatchingDims := []
  startIndicesBatchingDims := []
  startIndexMap := [0]
  indexVectorDim := 1
  sliceSizes := ![1, 16]
  wf := gather_S100000x16_S640000x1_S640000x16_1_0_n_n_0_1_116_wf
def scatter_S100000x16_S640000x1_S640000x16_1_0_0_1 : ScatterDims S100000x16 S640000x1 S640000x16 where
  updateWindowDims := [1]
  insertedWindowDims := [0]
  scatterDimsToOperandDims := [0]
  indexVectorDim := 1
  wf := scatter_S100000x16_S640000x1_S640000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21_0) S10000x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21_1) S10000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v21_0) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S10000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x64 : Shape := ⟨2, ![128, 64]⟩
abbrev S100000x64 : Shape := ⟨2, ![100000, 64]⟩
abbrev S1x64 : Shape := ⟨2, ![1, 64]⟩
abbrev S640000x64 : Shape := ⟨2, ![640000, 64]⟩
abbrev S64x16 : Shape := ⟨2, ![64, 16]⟩
abbrev S100000x16 : Shape := ⟨2, ![100000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S16x64, .f32⟩
  | .hbm, ⟨6, _⟩ => ⟨S16x64, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S128x64, .f32⟩
  | .hbm, ⟨26, _⟩ => ⟨S100000x64, .f32⟩
  | .hbm, ⟨27, _⟩ => ⟨S128x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S1x640000, .i32⟩
  | .hbm, ⟨37, _⟩ => ⟨S640000, .i32⟩
  | .hbm, ⟨38, _⟩ => ⟨S1x640000, .i32⟩
  | .hbm, ⟨39, _⟩ => ⟨S640000, .i32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x64, .f32⟩
  | .hbm, ⟨49, _⟩ => ⟨S_, .f32⟩
  | .hbm, ⟨50, _⟩ => ⟨S100000x64, .f32⟩
  | .hbm, ⟨51, _⟩ => ⟨S640000x1, .i32⟩
  | .hbm, ⟨52, _⟩ => ⟨S100000x64, .f32⟩
  | .hbm, ⟨53, _⟩ => ⟨S64x16, .f32⟩
  | .hbm, ⟨54, _⟩ => ⟨S100000x16, .f32⟩
  | .hbm, ⟨55, _⟩ => ⟨S64x16, .f32⟩
  | .hbm, ⟨56, _⟩ => ⟨S100000x16, .f32⟩
  | .hbm, ⟨57, _⟩ => ⟨S100000x16, .f32⟩
  | .hbm, ⟨58, _⟩ => ⟨S1x16, .f32⟩
  | .hbm, ⟨59, _⟩ => ⟨S100000x16, .f32⟩
  | .hbm, ⟨60, _⟩ => ⟨S100000x16, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S100000x1, .f32⟩
  | .hbm, ⟨74, _⟩ => ⟨S100000x16, .f32⟩
  | .hbm, ⟨75, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v45 : Ref sig .tc := ⟨.hbm, 75, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x64_S100000x64_1_0_0_1_n_n_wf : DotDims.WF S100000x128 S128x64 S100000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  dot_S100000x64_S64x16_S100000x16_1_0_0_1_n_n_wf : DotDims.WF S100000x64 S64x16 S100000x16 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.RunNamed.lean ====
/-
  The program's run with its RESULT buffer named: every weakly fair execution of @main terminates, without a fault,
  the result array holding what the fourth launch's write-backs leave in it and every argument array as launched.
  The run is the four launches among the stretches of host operations, one segment each; the contents of every
  buffer at every boundary between segments are those the imported generated frame module names, read here at the
  result buffer as well as at the arguments.
-/
import proofs.«176011_j850403525401_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents `W8`, the arguments as launched. -/
theorem run_main : θ_run defs (onTc (τ := τ) (main (F := F))) ⟨m, fun _ => 0, ρ⟩ (fun r => ∀ c : Dev nD,
      r.2.mem ((c.tc : Thread nD τ).loc main_v33) = W8 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v33 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunNamed

end
-- ==== Proof.HostRead.lean ====
/-
  The program's four stretches of host operations, each read at the buffers the launches take: what a buffer holds after
  a stretch, as the stretch's operations applied to what its operands held before it, and the buffers a stretch leaves alone.

  Before the first launch: the two rows of the edge array as vectors, and the first layer's two weight matrices transposed.
  Before the second: the second product's rows taken at the (wrapped) source indices and summed into their destination
  rows, from zeros; the bias as a row. Before the third: the second layer's two weight matrices transposed. Before the
  fourth: the same taking and summing of rows for the second layer, and its bias as a row.
-/
import proofs.«176011_j850403525401_2_alg».proof.Proof.Gen.KernelIdeal.Frame

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

/-- Row 0 of the edge array as a vector: the edges' source indices as given. -/
def srcRaw (a1 : (⟨S2x640000, .i32⟩ : BufTy).Contents (Elt F)) : (⟨S640000, .i32⟩ : BufTy).Contents (Elt F) :=
  shapeCast S640000 (extractStridedSlice S1x640000 ![0, 0] a1 slices_S2x640000_S1x640000_0_0) shapeCasts_S1x640000_S640000

/-- Row 1 of the edge array as a vector: the edges' destination indices. -/
def dstRaw (a1 : (⟨S2x640000, .i32⟩ : BufTy).Contents (Elt F)) : (⟨S640000, .i32⟩ : BufTy).Contents (Elt F) :=
  shapeCast S640000 (extractStridedSlice S1x640000 ![1, 0] a1 slices_S2x640000_S1x640000_1_0) shapeCasts_S1x640000_S640000

/-- The source indices with a negative one wrapped once (`i < 0 ? i + 100000 : i`), as a column. -/
def srcCol (v : (⟨S640000, .i32⟩ : BufTy).Contents (Elt F)) : (⟨S640000x1, .i32⟩ : BufTy).Contents (Elt F) :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 100000#32))) v)

/-- The destination indices as a column. -/
def dstCol (v : (⟨S640000, .i32⟩ : BufTy).Contents (Elt F)) : (⟨S640000x1, .i32⟩ : BufTy).Contents (Elt F) :=
  broadcastInDim S640000x1 ![0] bcast_S640000_S640000x1_0 v

variable (W : Valuation τ sig (Elt F))

/-! ## Before the first launch -/

theorem h0_v1 : after hostOps0 W (Proc.devRef .tc main_v1) = srcRaw (W (Proc.devRef .tc main_arg1)) := by
  after_results <;> rfl
theorem h0_v3 : after hostOps0 W (Proc.devRef .tc main_v3) = dstRaw (W (Proc.devRef .tc main_arg1)) := by
  after_results <;> rfl
theorem h0_v4 : after hostOps0 W (Proc.devRef .tc main_v4)
    = transpose S128x64 [1, 0] (W (Proc.devRef .tc main_arg3)) transposes_S64x128_S128x64_1_0 := by
  after_results <;> rfl
theorem h0_v5 : after hostOps0 W (Proc.devRef .tc main_v5)
    = transpose S128x64 [1, 0] (W (Proc.devRef .tc main_arg2)) transposes_S64x128_S128x64_1_0 := by
  after_results <;> rfl
theorem h0_arg0 : after hostOps0 W (Proc.devRef .tc main_arg0) = W (Proc.devRef .tc main_arg0) := by after_results
theorem h0_arg4 : after hostOps0 W (Proc.devRef .tc main_arg4) = W (Proc.devRef .tc main_arg4) := by after_results
theorem h0_arg5 : after hostOps0 W (Proc.devRef .tc main_arg5) = W (Proc.devRef .tc main_arg5) := by after_results
theorem h0_arg6 : after hostOps0 W (Proc.devRef .tc main_arg6) = W (Proc.devRef .tc main_arg6) := by after_results
theorem h0_arg7 : after hostOps0 W (Proc.devRef .tc main_arg7) = W (Proc.devRef .tc main_arg7) := by after_results

/-! ## Before the second launch -/

theorem h1_v16 : after hostOps1 W (Proc.devRef .tc main_v16)
    = Host.scatterAdd scatter_S100000x64_S640000x1_S640000x64_1_0_0_1
        (broadcastInDim S100000x64 ![] bcast_S_S100000x64 (constant S_ .f32 0x00000000#32))
        (dstCol (W (Proc.devRef .tc main_v3)))
        (Host.gather gather_S100000x64_S640000x1_S640000x64_1_0_n_n_0_1_164 (W (Proc.devRef .tc main_v6_1)) (srcCol (W (Proc.devRef .tc main_v1)))) := by
  after_results <;> rfl
theorem h1_v17 : after hostOps1 W (Proc.devRef .tc main_v17) = shapeCast S1x64 (W (Proc.devRef .tc main_arg4)) shapeCasts_S64_S1x64 := by
  after_results <;> rfl
theorem h1_v6_0 : after hostOps1 W (Proc.devRef .tc main_v6_0) = W (Proc.devRef .tc main_v6_0) := by after_results
theorem h1_v1 : after hostOps1 W (Proc.devRef .tc main_v1) = W (Proc.devRef .tc main_v1) := by after_results
theorem h1_v3 : after hostOps1 W (Proc.devRef .tc main_v3) = W (Proc.devRef .tc main_v3) := by after_results
theorem h1_arg5 : after hostOps1 W (Proc.devRef .tc main_arg5) = W (Proc.devRef .tc main_arg5) := by after_results
theorem h1_arg6 : after hostOps1 W (Proc.devRef .tc main_arg6) = W (Proc.devRef .tc main_arg6) := by after_results
theorem h1_arg7 : after hostOps1 W (Proc.devRef .tc main_arg7) = W (Proc.devRef .tc main_arg7) := by after_results

/-! ## Before the third launch -/

theorem h2_v19 : after hostOps2 W (Proc.devRef .tc main_v19)
    = transpose S64x16 [1, 0] (W (Proc.devRef .tc main_arg6)) transposes_S16x64_S64x16_1_0 := by
  after_results <;> rfl
theorem h2_v20 : after hostOps2 W (Proc.devRef .tc main_v20)
    = transpose S64x16 [1, 0] (W (Proc.devRef .tc main_arg5)) transposes_S16x64_S64x16_1_0 := by
  after_results <;> rfl
theorem h2_v18 : after hostOps2 W (Proc.devRef .tc main_v18) = W (Proc.devRef .tc main_v18) := by after_results
theorem h2_v1 : after hostOps2 W (Proc.devRef .tc main_v1) = W (Proc.devRef .tc main_v1) := by after_results
theorem h2_v3 : after hostOps2 W (Proc.devRef .tc main_v3) = W (Proc.devRef .tc main_v3) := by after_results
theorem h2_arg7 : after hostOps2 W (Proc.devRef .tc main_arg7) = W (Proc.devRef .tc main_arg7) := by after_results

/-! ## Before the fourth launch -/

theorem h3_v31 : after hostOps3 W (Proc.devRef .tc main_v31)
    = Host.scatterAdd scatter_S100000x16_S640000x1_S640000x16_1_0_0_1
        (broadcastInDim S100000x16 ![] bcast_S_S100000x16 (constant S_ .f32 0x00000000#32))
        (dstCol (W (Proc.devRef .tc main_v3)))
        (Host.gather gather_S100000x16_S640000x1_S640000x16_1_0_n_n_0_1_116 (W (Proc.devRef .tc main_v21_1)) (srcCol (W (Proc.devRef .tc main_v1)))) := by
  after_results <;> rfl
theorem h3_v32 : after hostOps3 W (Proc.devRef .tc main_v32) = shapeCast S1x16 (W (Proc.devRef .tc main_arg7)) shapeCasts_S16_S1x16 := by
  after_results <;> rfl
theorem h3_v21_0 : after hostOps3 W (Proc.devRef .tc main_v21_0) = W (Proc.devRef .tc main_v21_0) := by after_results

end Cert.KernelIdeal.HostRead

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.Spec.lean ====
/-
  Two graph-convolution layers and a row-wise log-softmax, as functions of the argument arrays, entry by entry,
  over the extended reals — and the one law that joins the two ways of computing a layer.

  A layer takes node features `x : [N, K]`, two weight matrices `w_rel, w_root : [C, K]`, a bias `b : [C]`
  and two index columns: edge `e` reads node `row e` (its source index, clamped) and is summed into the node
  whose number is its destination index. One program sums the source rows first and multiplies the sums by
  `w_relᵀ`:  out (r, c) = Σ_k x (r, k) · w_root (c, k) + Σ_k (Σ_{e → r} x (row e, k)) · w_rel (c, k) + b c.
  The other multiplies every row by `w_relᵀ` first and sums the products' rows:
  out (r, c) = Σ_k x (r, k) · w_root (c, k) + Σ_{e → r} (Σ_k x (row e, k) · w_rel (c, k)) + b c.
  For real (finite) `x` and `w_rel` the two agree: a finite double sum may be taken in either order and a
  factor moved into a finite sum. On the extended reals this needs finiteness — an infinite entry times a
  zero sum is not the sum of the infinite products — so the law is stated for arrays of reals.
-/
import proofs.«176011_j850403525401_2_alg».proof.Proof.LibSegmentRows
import proofs.«176011_j850403525401_2_alg».proof.Proof.LibIdealReal
import proofs.«176011_j850403525401_2_alg».proof.Proof.LibERealSums

noncomputable section

open Idealize.ShloMosaic Idealize.ShloMosaic.ValueIdx Cert.SegmentRows Cert.IdealReal

namespace Cert.GraphConv

abbrev Mat (m n : Nat) := (⟨2, ![m, n]⟩ : Shape).Idx → EReal
abbrev Vc (n : Nat) := (⟨1, ![n]⟩ : Shape).Idx → EReal
abbrev Col (E : Nat) := IVec ⟨2, ![E, 1]⟩ 32

variable {N E K C H : Nat}

/-- A matrix given entry by entry. -/
def of2 (F : Fin N → Fin C → EReal) : Mat N C := fun i => F (i 0) (i 1)

theorem of2_ix2 (F : Fin N → Fin C → EReal) (r : Fin N) (c : Fin C) : of2 F (ix2 r c) = F r c := rfl

theorem eq_of2 (v : Mat N C) (F : Fin N → Fin C → EReal) (h : ∀ r c, v (ix2 r c) = F r c) : v = of2 F := by
  funext i
  rw [eq_ix2 i]
  exact h _ _

/-- A vector of reals as a vector of extended reals. -/
def lift1 (f : Fin C → ℝ) : Vc C := fun i => ((f (i 0) : ℝ) : EReal)

theorem lift1_ix1 (f : Fin C → ℝ) (c : Fin C) : lift1 f (ix1 c) = ((f c : ℝ) : EReal) := rfl

theorem eq_lift1 (v : Vc C) (f : Fin C → ℝ) (h : ∀ c, v (ix1 c) = ((f c : ℝ) : EReal)) : v = lift1 f := by
  funext i
  rw [eq_ix1 i]
  exact h _

/-- `x · wᵀ` at `(r, c)`. -/
def projE (x : Mat N K) (w : Mat C K) (r : Fin N) (c : Fin C) : EReal := ∑ k : Fin K, x (ix2 r k) * w (ix2 c k)

/-- The rows `y (row e, ·)` of the edges that end at node `r`, summed, at column `c` (from zero). -/
def aggE (hN : 0 < N) (si di : Col E) (y : Mat N C) (r : Fin N) (c : Fin C) : EReal :=
  0 + ∑ e ∈ segment di r, y (ix2 (takeRow hN si e) c)

/-- A layer that multiplies by `w_relᵀ` BEFORE summing over the edges. -/
def layerKE (hN : 0 < N) (si di : Col E) (x : Mat N K) (wrel wroot : Mat C K) (b : Vc C) (r : Fin N) (c : Fin C) : EReal :=
  (projE x wroot r c + aggE hN si di (of2 (projE x wrel)) r c) + b (ix1 c)

/-- A layer that sums over the edges first and multiplies by `w_relᵀ` AFTER. -/
def layerRE (hN : 0 < N) (si di : Col E) (x : Mat N K) (wrel wroot : Mat C K) (b : Vc C) (r : Fin N) (c : Fin C) : EReal :=
  (projE x wroot r c + projE (of2 (aggE hN si di x)) wrel r c) + b (ix1 c)

/-- The positive part, entry by entry. -/
def relu (y : Mat N C) : Mat N C := fun i => max (y i) 0

/-- A row's maximum, folded from minus infinity. -/
def rowMax (y : Mat N C) (r : Fin N) : EReal :=
  (Finset.univ : Finset (Fin C)).fold max (Ideal.ofBits .f32 0xFF800000#32) (fun c => y (ix2 r c))

/-- The row-wise log-softmax at `(r, c)`: `z − log Σ_c' exp z` with `z = y − max of the row`. -/
def lsmE (y : Mat N C) (r : Fin N) (c : Fin C) : EReal :=
  (y (ix2 r c) - rowMax y r) - Ideal.log (∑ c' : Fin C, Ideal.exp (y (ix2 r c') - rowMax y r))

/-! ## The law: summing the edges' rows commutes with the product by `w_relᵀ`, on reals -/

theorem agg_proj (hN : 0 < N) (si di : Col E) (X : Fin N → Fin K → ℝ) (W : Fin C → Fin K → ℝ) (r : Fin N) (c : Fin C) :
    aggE hN si di (of2 (projE (lift2 X) (lift2 W))) r c = projE (of2 (aggE hN si di (lift2 X))) (lift2 W) r c := by
  have hL : aggE hN si di (of2 (projE (lift2 X) (lift2 W))) r c
      = ((∑ e ∈ segment di r, ∑ k : Fin K, X (takeRow hN si e) k * W c k : ℝ) : EReal) := by
    unfold aggE
    rw [zero_add]
    refine Cert.LibERealSums.sum_eq_coe _ _ _ fun e _ => ?_
    rw [of2_ix2]
    unfold projE
    refine Cert.LibERealSums.sum_eq_coe _ _ _ fun k _ => ?_
    rw [lift2_ix2, lift2_ix2, EReal.coe_mul]
  have hR : projE (of2 (aggE hN si di (lift2 X))) (lift2 W) r c
      = ((∑ k : Fin K, (∑ e ∈ segment di r, X (takeRow hN si e) k) * W c k : ℝ) : EReal) := by
    unfold projE
    refine Cert.LibERealSums.sum_eq_coe _ _ _ fun k _ => ?_
    rw [of2_ix2, lift2_ix2]
    unfold aggE
    rw [zero_add, Cert.LibERealSums.sum_eq_coe _ _ (fun e => X (takeRow hN si e) k) (fun e _ => lift2_ix2 X _ _), EReal.coe_mul]
  rw [hL, hR, Finset.sum_comm]
  congr 1
  exact Finset.sum_congr rfl fun k _ => (Finset.sum_mul _ _ _).symm

/-- The two layers agree when the features and `w_rel` are arrays of reals. -/
theorem layerKE_eq_layerRE (hN : 0 < N) (si di : Col E) (X : Fin N → Fin K → ℝ) (W : Fin C → Fin K → ℝ)
    (wroot : Mat C K) (b : Vc C) :
    of2 (layerKE hN si di (lift2 X) (lift2 W) wroot b) = of2 (layerRE hN si di (lift2 X) (lift2 W) wroot b) := by
  refine congrArg of2 (funext fun r => funext fun c => ?_)
  unfold layerKE layerRE
  rw [agg_proj]

/-- A layer of arrays of reals is an array of reals. -/
theorem layerRE_real (hN : 0 < N) (si di : Col E) (X : Fin N → Fin K → ℝ) (Wr Wo : Fin C → Fin K → ℝ) (B : Fin C → ℝ) :
    ∃ Y : Fin N → Fin C → ℝ, of2 (layerRE hN si di (lift2 X) (lift2 Wr) (lift2 Wo) (lift1 B)) = lift2 Y := by
  refine ⟨fun r c => (∑ k : Fin K, X r k * Wo c k + ∑ k : Fin K, (∑ e ∈ segment di r, X (takeRow hN si e) k) * Wr c k) + B c,
    eq_lift2 _ _ fun r c => ?_⟩
  rw [of2_ix2]
  unfold layerRE
  have h1 : projE (lift2 X) (lift2 Wo) r c = ((∑ k : Fin K, X r k * Wo c k : ℝ) : EReal) := by
    unfold projE
    refine Cert.LibERealSums.sum_eq_coe _ _ _ fun k _ => ?_
    rw [lift2_ix2, lift2_ix2, EReal.coe_mul]
  have h2 : projE (of2 (aggE hN si di (lift2 X))) (lift2 Wr) r c
      = ((∑ k : Fin K, (∑ e ∈ segment di r, X (takeRow hN si e) k) * Wr c k : ℝ) : EReal) := by
    unfold projE
    refine Cert.LibERealSums.sum_eq_coe _ _ _ fun k _ => ?_
    rw [of2_ix2, lift2_ix2]
    unfold aggE
    rw [zero_add, Cert.LibERealSums.sum_eq_coe _ _ (fun e => X (takeRow hN si e) k) (fun e _ => lift2_ix2 X _ _), EReal.coe_mul]
  rw [h1, h2, lift1_ix1, EReal.coe_add, EReal.coe_add]

/-- The positive part of an array of reals is an array of reals. -/
theorem relu_lift2 (Y : Fin N → Fin C → ℝ) : relu (lift2 Y) = lift2 fun r c => max (Y r c) 0 := by
  refine eq_lift2 _ _ fun r c => ?_
  show max ((Y r c : ℝ) : EReal) 0 = _
  rw [← EReal.coe_zero]
  exact (EReal.coe_strictMono.monotone.map_max).symm

/-- TWO LAYERS with the positive part between them: the two ways of computing agree on arrays of reals. -/
theorem two_layers (hN : 0 < N) (si di : Col E) (X : Fin N → Fin K → ℝ) (W1r W1o : Fin H → Fin K → ℝ) (B1 : Fin H → ℝ)
    (W2r : Fin C → Fin H → ℝ) (w2o : Mat C H) (b2 : Vc C) :
    of2 (layerKE hN si di (relu (of2 (layerKE hN si di (lift2 X) (lift2 W1r) (lift2 W1o) (lift1 B1)))) (lift2 W2r) w2o b2)
      = of2 (layerRE hN si di (relu (of2 (layerRE hN si di (lift2 X) (lift2 W1r) (lift2 W1o) (lift1 B1)))) (lift2 W2r) w2o b2) := by
  rw [layerKE_eq_layerRE]
  obtain ⟨Y, hY⟩ := layerRE_real hN si di X W1r W1o B1
  rw [hY, relu_lift2, layerKE_eq_layerRE]

end Cert.GraphConv

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«176011_j850403525401_2_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«176011_j850403525401_2_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.Glue.lean ====
/-
  The host operations of a graph-convolution layer and of a log-softmax read at an entry, over the extended reals:
  a product with transposed weights is `projE`; taking the source rows and summing them into their destination rows,
  from a zero array, is `aggE`; the layouts that put a bias vector on every row and a per-row scalar on every column
  read the vector at the column and the scalar at the row; a row's maximum and a row's sum as the host states them.
-/
import proofs.«176011_j850403525401_2_alg».proof.Proof.Spec
import proofs.«176011_j850403525401_2_alg».proof.Proof.LibPlainDot
import proofs.«176011_j850403525401_2_alg».proof.Proof.LibRows
import proofs.«176011_j850403525401_2_alg».proof.Proof.LibRowMax
import Idealize.ShloMosaic.Lib.ValueLayout
import Idealize.ShloMosaic.Lib.Pipeline.Value
import Idealize.ShloMosaic.PureOps.Reduce

noncomputable section

open Idealize.ShloMosaic Idealize.ShloMosaic.ValueIdx Cert.SegmentRows Cert.IdealReal

namespace Cert.GraphConv

variable {N E K C : Nat}

/-- A plain product `x · w`, entry by entry. -/
def mm {n k m : Nat} (x : Mat n k) (w : Mat k m) : Mat n m := of2 fun r c => ∑ j : Fin k, x (ix2 r j) * w (ix2 j c)

/-- Two arrays and a bias row added: `(y_root + agg) + b`, the bias on every row. -/
def pre (yroot agg : Mat N C) (b : Mat 1 C) : Mat N C :=
  of2 fun r c => (yroot (ix2 r c) + agg (ix2 r c)) + b (ix2 (0 : Fin 1) c)

/-- A plain product with transposed weights is `projE`. -/
theorem mm_transpose (ht : (⟨2, ![C, K]⟩ : Shape).Transposes [1, 0] ⟨2, ![K, C]⟩) (x : Mat N K) (w : Mat C K) :
    mm x (transpose ⟨2, ![K, C]⟩ [1, 0] w ht) = of2 (projE x w) := by
  unfold mm
  refine congrArg of2 (funext fun r => funext fun c => ?_)
  unfold projE
  exact Finset.sum_congr rfl fun k _ => by rw [transpose_ix2_apply]

/-- The host's product with transposed weights, at `(r, c)`. -/
theorem dotT_apply (D : DotDims ⟨2, ![N, K]⟩ ⟨2, ![K, C]⟩ ⟨2, ![N, C]⟩)
    (hlc : D.lhsContracting = [1]) (hrc : D.rhsContracting = [0]) (hln : D.lhsNonContracting = [0])
    (hrn : D.rhsNonContracting = [1]) (hlb : D.lhsBatch = []) (hrb : D.rhsBatch = [])
    (ht : (⟨2, ![C, K]⟩ : Shape).Transposes [1, 0] ⟨2, ![K, C]⟩) (x : Mat N K) (w : Mat C K) (r : Fin N) (c : Fin C) :
    Host.dotGeneral (F := Ideal) (φ₁ := .f32) (φ₂ := .f32) D none x (transpose ⟨2, ![K, C]⟩ [1, 0] w ht) (ix2 r c) = projE x w r c := by
  refine (Cert.LibPlainDot.dotGeneral_plain_apply D hlc hrc hln hrn hlb hrb none .single x _ r c).trans ?_
  unfold projE
  exact Finset.sum_congr rfl fun k _ => by rw [transpose_ix2_apply]

/-- Taking the source rows and summing them into their destination rows, from an array of zeros. -/
theorem gather_scatter_apply (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (g : GatherDims ⟨2, ![N, C]⟩ ⟨2, ![E, 1]⟩ ⟨2, ![E, C]⟩) (hg : g = rowGatherDims N E C wfG)
    (d : ScatterDims ⟨2, ![N, C]⟩ ⟨2, ![E, 1]⟩ ⟨2, ![E, C]⟩) (hd : d = rowScatterDims N E C wfS)
    (z : Mat N C) (hz : ∀ i, z i = 0) (x : Mat N C) (si di : Col E) (r : Fin N) (c : Fin C) :
    Host.scatterAdd (F := Ideal) (φ := .f32) d z di (Host.gather g x si) (ix2 r c) = aggE hN si di x r c := by
  subst hg hd
  show Ideal.hostScatterAdd (rowScatterDims N E C wfS) z di (Host.gather (rowGatherDims N E C wfG) x si) (ix2 r c) = _
  rw [scatterAdd_rows_apply, hz]
  unfold aggE
  refine congrArg (fun t => (0 : EReal) + t) ?_
  exact Finset.sum_congr rfl fun e _ => gather_rows_apply hN wfG x si e c

/-- A zero splat is zero everywhere. -/
theorem zeros_apply {s : Shape} (h : (⟨0, ![]⟩ : Shape).BroadcastsInDim s ![]) (i : s.Idx) :
    broadcastInDim s ![] h (constant (F := Ideal) ⟨0, ![]⟩ .f32 0x00000000#32) i = 0 := by
  rw [broadcastInDim_apply ![] h (constant (F := Ideal) ⟨0, ![]⟩ .f32 0x00000000#32) i (fun a => a.elim0) (fun a => a.elim0)]
  exact Ideal.ofBits_zero_f32

/-- A splat of minus infinity's pattern is that value everywhere. -/
theorem neginf_apply {s : Shape} (h : (⟨0, ![]⟩ : Shape).BroadcastsInDim s ![]) (i : s.Idx) :
    broadcastInDim s ![] h (constant (F := Ideal) ⟨0, ![]⟩ .f32 0xFF800000#32) i = Ideal.ofBits .f32 0xFF800000#32 := by
  rw [broadcastInDim_apply ![] h (constant (F := Ideal) ⟨0, ![]⟩ .f32 0xFF800000#32) i (fun a => a.elim0) (fun a => a.elim0)]
  rfl

variable {α : Type}

/-- A row `[1, C]` put on every row. -/
theorem bcastInDim_row_apply (h : (⟨2, ![1, C]⟩ : Shape).BroadcastsInDim ⟨2, ![N, C]⟩ ![0, 1])
    (y : (⟨2, ![1, C]⟩ : Shape).Idx → α) (r : Fin N) (c : Fin C) :
    broadcastInDim ⟨2, ![N, C]⟩ ![0, 1] h y (ix2 r c) = y (ix2 (0 : Fin 1) c) :=
  broadcastInDim_apply ![0, 1] h y (ix2 r c) (ix2 (0 : Fin 1) c) fun a => match a with
    | ⟨0, _⟩ => by show 0 = if (1 : ℕ) = 1 then 0 else r.val; rw [if_pos rfl]
    | ⟨1, _⟩ => by
      show c.val = if C = 1 then 0 else c.val
      split
      · have := c.isLt; omega
      · rfl

/-- A vector `[C]` laid as the row `[1, C]`. -/
theorem bcastInDim_vecRow_apply (h : (⟨1, ![C]⟩ : Shape).BroadcastsInDim ⟨2, ![1, C]⟩ ![1])
    (v : (⟨1, ![C]⟩ : Shape).Idx → α) (u : Fin 1) (c : Fin C) :
    broadcastInDim ⟨2, ![1, C]⟩ ![1] h v (ix2 u c) = v (ix1 c) :=
  broadcastInDim_apply ![1] h v (ix2 u c) (ix1 c) fun a => match a with
    | ⟨0, _⟩ => by
      show c.val = if C = 1 then 0 else c.val
      split
      · have := c.isLt; omega
      · rfl

/-- A column `[N, 1]` put on every column. -/
theorem bcastInDim_col_apply (h : (⟨2, ![N, 1]⟩ : Shape).BroadcastsInDim ⟨2, ![N, C]⟩ ![0, 1])
    (y : (⟨2, ![N, 1]⟩ : Shape).Idx → α) (r : Fin N) (c : Fin C) :
    broadcastInDim ⟨2, ![N, C]⟩ ![0, 1] h y (ix2 r c) = y (ix2 r (0 : Fin 1)) :=
  broadcastInDim_apply ![0, 1] h y (ix2 r c) (ix2 r (0 : Fin 1)) fun a => match a with
    | ⟨0, _⟩ => by
      show r.val = if N = 1 then 0 else r.val
      split
      · have := r.isLt; omega
      · rfl
    | ⟨1, _⟩ => by show 0 = if (1 : ℕ) = 1 then 0 else c.val; rw [if_pos rfl]

/-- A vector `[N]` laid as the column `[N, 1]`. -/
theorem bcastInDim_vecCol_apply (h : (⟨1, ![N]⟩ : Shape).BroadcastsInDim ⟨2, ![N, 1]⟩ ![0])
    (v : (⟨1, ![N]⟩ : Shape).Idx → α) (r : Fin N) (u : Fin 1) :
    broadcastInDim ⟨2, ![N, 1]⟩ ![0] h v (ix2 r u) = v (ix1 r) :=
  broadcastInDim_apply ![0] h v (ix2 r u) (ix1 r) fun a => match a with
    | ⟨0, _⟩ => by
      show r.val = if N = 1 then 0 else r.val
      split
      · have := r.isLt; omega
      · rfl

/-- The host's maximum along the second axis, at row `r`: `max` folded over the row from the initial value. -/
theorem hostRowMax_apply (h' : (⟨2, ![N, C]⟩ : Shape).ReducesTo [1] ⟨1, ![N]⟩) (h : (⟨2, ![N, C]⟩ : Shape).Reduces [1] ⟨1, ![N]⟩)
    (hu : 0 < (⟨0, ![]⟩ : Shape).numel) (y : Mat N C) (init : (⟨0, ![]⟩ : Shape).Idx → EReal) (r : Fin N) :
    Host.reduce (FloatOps.maximumf (F := Ideal) (φ := .f32)) y init h' hu (ix1 r)
      = (Finset.univ : Finset (Fin C)).fold max (init (Shape.Idx.first hu)) (fun c => y (ix2 r c)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single (FloatOps.maximumf (F := Ideal) (φ := .f32)) y init h' h hu (ix1 r), Cert.LibRowMax.comp_lift_row]
  rfl

/-- The host's sum along the second axis, at row `r`: the initial value plus the row's sum. -/
theorem hostRowSum_apply (h' : (⟨2, ![N, C]⟩ : Shape).ReducesTo [1] ⟨1, ![N]⟩) (h : (⟨2, ![N, C]⟩ : Shape).Reduces [1] ⟨1, ![N]⟩)
    (hu : 0 < (⟨0, ![]⟩ : Shape).numel) (y : Mat N C) (init : (⟨0, ![]⟩ : Shape).Idx → EReal) (r : Fin N) :
    Host.reduceAdd (F := Ideal) (φ := .f32) y init h' hu (ix1 r) = init (Shape.Idx.first hu) + ∑ c : Fin C, y (ix2 r c) := by
  show Ideal.hostReduceAdd h' y (init (Shape.Idx.first hu)) (ix1 r) = _
  rw [Ideal.hostReduceAdd_single h' h]
  refine congrArg (fun t => init (Shape.Idx.first hu) + t) ?_
  exact Finset.sum_congr rfl fun k _ => congrArg y (Cert.Rows.lift_row h r k)

/-! ## A whole layer, either way, and the positive part and the log-softmax as the host states them -/

/-- PRODUCTS FIRST: the two plain products, the second one's rows taken and summed, and the bias row, added. -/
theorem pre_layerK (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (g : GatherDims ⟨2, ![N, C]⟩ ⟨2, ![E, 1]⟩ ⟨2, ![E, C]⟩) (hg : g = rowGatherDims N E C wfG)
    (d : ScatterDims ⟨2, ![N, C]⟩ ⟨2, ![E, 1]⟩ ⟨2, ![E, C]⟩) (hd : d = rowScatterDims N E C wfS)
    (z : Mat N C) (hz : ∀ i, z i = 0)
    (ht : (⟨2, ![C, K]⟩ : Shape).Transposes [1, 0] ⟨2, ![K, C]⟩) (hc : (⟨1, ![C]⟩ : Shape).ShapeCasts ⟨2, ![1, C]⟩)
    (x : Mat N K) (wrel wroot : Mat C K) (b : Vc C) (si di : Col E) :
    pre (mm x (transpose ⟨2, ![K, C]⟩ [1, 0] wroot ht))
        (Host.scatterAdd (F := Ideal) (φ := .f32) d z di (Host.gather g (mm x (transpose ⟨2, ![K, C]⟩ [1, 0] wrel ht)) si))
        (shapeCast ⟨2, ![1, C]⟩ b hc)
      = of2 (layerKE hN si di x wrel wroot b) := by
  unfold pre
  refine congrArg of2 (funext fun r => funext fun c => ?_)
  rw [mm_transpose, mm_transpose, of2_ix2, gather_scatter_apply hN wfG wfS g hg d hd z hz _ si di r c, shapeCast_a_1a_apply]
  rfl

/-- SUMS FIRST: the product of the features, the product of the summed source rows, and the bias, added. -/
theorem host_layerR (hN : 0 < N)
    (wfG : GatherDims.WF ⟨2, ![N, K]⟩ ⟨2, ![E, 1]⟩ ⟨2, ![E, K]⟩ [1] [0] [] [0] [] 1 ![1, K])
    (wfS : ScatterDims.WF ⟨2, ![N, K]⟩ ⟨2, ![E, 1]⟩ ⟨2, ![E, K]⟩ [1] [0] [0] 1)
    (g : GatherDims ⟨2, ![N, K]⟩ ⟨2, ![E, 1]⟩ ⟨2, ![E, K]⟩) (hg : g = rowGatherDims N E K wfG)
    (d : ScatterDims ⟨2, ![N, K]⟩ ⟨2, ![E, 1]⟩ ⟨2, ![E, K]⟩) (hd : d = rowScatterDims N E K wfS)
    (z : Mat N K) (hz : ∀ i, z i = 0)
    (D : DotDims ⟨2, ![N, K]⟩ ⟨2, ![K, C]⟩ ⟨2, ![N, C]⟩)
    (hlc : D.lhsContracting = [1]) (hrc : D.rhsContracting = [0]) (hln : D.lhsNonContracting = [0])
    (hrn : D.rhsNonContracting = [1]) (hlb : D.lhsBatch = []) (hrb : D.rhsBatch = [])
    (ht : (⟨2, ![C, K]⟩ : Shape).Transposes [1, 0] ⟨2, ![K, C]⟩)
    (hb1 : (⟨1, ![C]⟩ : Shape).BroadcastsInDim ⟨2, ![1, C]⟩ ![1]) (hb2 : (⟨2, ![1, C]⟩ : Shape).BroadcastsInDim ⟨2, ![N, C]⟩ ![0, 1])
    (x : Mat N K) (wrel wroot : Mat C K) (b : Vc C) (si di : Col E) :
    addf (addf (Host.dotGeneral (F := Ideal) (φ₁ := .f32) (φ₂ := .f32) D none x (transpose ⟨2, ![K, C]⟩ [1, 0] wroot ht))
               (Host.dotGeneral (F := Ideal) (φ₁ := .f32) (φ₂ := .f32) D none
                  (Host.scatterAdd (F := Ideal) (φ := .f32) d z di (Host.gather g x si)) (transpose ⟨2, ![K, C]⟩ [1, 0] wrel ht)))
         (broadcastInDim ⟨2, ![N, C]⟩ ![0, 1] hb2 (broadcastInDim ⟨2, ![1, C]⟩ ![1] hb1 b))
      = of2 (layerRE hN si di x wrel wroot b) := by
  have hagg : Host.scatterAdd (F := Ideal) (φ := .f32) d z di (Host.gather g x si) = of2 (aggE hN si di x) :=
    eq_of2 _ _ fun r k => gather_scatter_apply hN wfG wfS g hg d hd z hz x si di r k
  rw [hagg]
  refine eq_of2 _ _ fun r c => ?_
  show (Host.dotGeneral (F := Ideal) (φ₁ := .f32) (φ₂ := .f32) D none x (transpose ⟨2, ![K, C]⟩ [1, 0] wroot ht) (ix2 r c)
        + Host.dotGeneral (F := Ideal) (φ₁ := .f32) (φ₂ := .f32) D none (of2 (aggE hN si di x)) (transpose ⟨2, ![K, C]⟩ [1, 0] wrel ht) (ix2 r c))
      + broadcastInDim ⟨2, ![N, C]⟩ ![0, 1] hb2 (broadcastInDim ⟨2, ![1, C]⟩ ![1] hb1 b) (ix2 r c) = _
  rw [dotT_apply D hlc hrc hln hrn hlb hrb ht x wroot r c, dotT_apply D hlc hrc hln hrn hlb hrb ht _ wrel r c,
    bcastInDim_row_apply, bcastInDim_vecRow_apply]
  rfl

/-- The host's positive part: the maximum with a zero splat. -/
theorem host_relu (h : (⟨0, ![]⟩ : Shape).BroadcastsInDim ⟨2, ![N, C]⟩ ![]) (y : Mat N C) :
    maximumf (F := Ideal) (φ := .f32) y (broadcastInDim ⟨2, ![N, C]⟩ ![] h (constant (F := Ideal) ⟨0, ![]⟩ .f32 0x00000000#32)) = relu y := by
  funext i
  show max (y i) (broadcastInDim ⟨2, ![N, C]⟩ ![] h (constant (F := Ideal) ⟨0, ![]⟩ .f32 0x00000000#32) i) = max (y i) 0
  rw [zeros_apply]

section HostSoftmax

variable (h' : (⟨2, ![N, C]⟩ : Shape).ReducesTo [1] ⟨1, ![N]⟩)
  (hu : 0 < (⟨0, ![]⟩ : Shape).numel)
  (hb0 : (⟨0, ![]⟩ : Shape).BroadcastsInDim ⟨1, ![N]⟩ ![]) (hb1 : (⟨1, ![N]⟩ : Shape).BroadcastsInDim ⟨2, ![N, 1]⟩ ![0])
  (hb2 : (⟨2, ![N, 1]⟩ : Shape).BroadcastsInDim ⟨2, ![N, C]⟩ ![0, 1])

/-- The host's first step: each row less its maximum (the maximum folded from minus infinity, then compared with a
    splat of minus infinity once more). -/
def shiftHost (y : Mat N C) : Mat N C :=
  subf (F := Ideal) (φ := .f32) y (broadcastInDim ⟨2, ![N, C]⟩ ![0, 1] hb2 (broadcastInDim ⟨2, ![N, 1]⟩ ![0] hb1
    (maximumf (F := Ideal) (φ := .f32) (broadcastInDim ⟨1, ![N]⟩ ![] hb0 (constant (F := Ideal) ⟨0, ![]⟩ .f32 0xFF800000#32))
      (Host.reduce (FloatOps.maximumf (F := Ideal) (φ := .f32)) y (constant (F := Ideal) ⟨0, ![]⟩ .f32 0xFF800000#32) h' hu))))

/-- The host's log-softmax: the shifted rows less the logarithm of their sums of exponentials. -/
def lsmHost (y : Mat N C) : Mat N C :=
  subf (F := Ideal) (φ := .f32) (shiftHost h' hu hb0 hb1 hb2 y) (broadcastInDim ⟨2, ![N, C]⟩ ![0, 1] hb2 (Host.log (F := Ideal) (φ := .f32)
    (broadcastInDim ⟨2, ![N, 1]⟩ ![0] hb1
      (Host.reduceAdd (F := Ideal) (φ := .f32) (Host.exp (F := Ideal) (φ := .f32) (shiftHost h' hu hb0 hb1 hb2 y))
        (constant (F := Ideal) ⟨0, ![]⟩ .f32 0x00000000#32) h' hu))))

theorem hostLog_apply {s : Shape} (v : FVec Ideal s .f32) (i : s.Idx) : Host.log (F := Ideal) (φ := .f32) v i = Ideal.log (v i) := rfl
theorem hostExp_apply {s : Shape} (v : FVec Ideal s .f32) (i : s.Idx) : Host.exp (F := Ideal) (φ := .f32) v i = Ideal.exp (v i) := rfl

theorem shiftHost_apply (h : (⟨2, ![N, C]⟩ : Shape).Reduces [1] ⟨1, ![N]⟩) (y : Mat N C) (r : Fin N) (c : Fin C) :
    shiftHost h' hu hb0 hb1 hb2 y (ix2 r c) = y (ix2 r c) - rowMax y r := by
  unfold shiftHost
  rw [subf_apply, bcastInDim_col_apply, bcastInDim_vecCol_apply, maximumf_apply, neginf_apply,
    hostRowMax_apply h' h hu y _ r, Cert.Rows.neg_inf_max]
  rfl

theorem lsmHost_eq (h : (⟨2, ![N, C]⟩ : Shape).Reduces [1] ⟨1, ![N]⟩) (y : Mat N C) : lsmHost h' hu hb0 hb1 hb2 y = of2 (lsmE y) := by
  refine eq_of2 _ _ fun r c => ?_
  unfold lsmHost
  rw [subf_apply, bcastInDim_col_apply, hostLog_apply, bcastInDim_vecCol_apply, hostRowSum_apply h' h hu _ _ r,
    shiftHost_apply h' hu hb0 hb1 hb2 h y r c, constant_apply, Ideal.ofBits_zero_f32, zero_add]
  unfold lsmE
  refine congrArg (fun t => (y (ix2 r c) - rowMax y r) - Ideal.log t) (Finset.sum_congr rfl fun c' _ => ?_)
  rw [hostExp_apply, shiftHost_apply h' hu hb0 hb1 hb2 h y r c']

end HostSoftmax

/-- The log-softmax reads one row: equal rows give equal values. -/
theorem lsmE_congr {N' : Nat} (y : Mat N C) (y' : Mat N' C) (r : Fin N) (r' : Fin N') (h : ∀ c, y (ix2 r c) = y' (ix2 r' c)) (c : Fin C) :
    lsmE y r c = lsmE y' r' c := by
  have hm : rowMax y r = rowMax y' r' := by
    unfold rowMax
    exact congrArg (fun f => (Finset.univ : Finset (Fin C)).fold max (Ideal.ofBits .f32 0xFF800000#32) f) (funext h)
  unfold lsmE
  rw [hm, h c]
  exact congrArg (fun t => _ - Ideal.log t) (Finset.sum_congr rfl fun c' _ => by rw [h c'])

end Cert.GraphConv

end
-- ==== Proof.Region0.lean ====
/-
  The first launch (two products of one pass over the node features), read as whole arrays.

  The launch walks the rows of `x : [100000, 128]` in ten blocks of 10000 rows; at block `t` it multiplies
  rows `10000 t … 10000 t + 9999` by each of the two `[128, 64]` matrices, which it holds whole, and writes the two
  `[10000, 64]` products back to the same rows of its two results. So each result is `x · w` entry by entry:
  entry `(r, c)` is `Σ_k x (r, k) · w (k, c)`, whatever the block of `r`.
-/
import proofs.«176011_j850403525401_2_alg».proof.Proof.Gen.KernelIdeal.Frame
import proofs.«176011_j850403525401_2_alg».proof.Proof.LibPlainMatmul
import proofs.«176011_j850403525401_2_alg».proof.Proof.Glue
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The block's product at `(p, q)`. -/
theorem pay1_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  rw [shapeCast_self]
  exact Cert.LibPlainMatmul.matmul_zero_apply dot_S10000x128_S128x64_S10000x64_1_0_0_1_n_n rfl rfl rfl rfl rfl rfl (some .fp32) x0 x1 p q

theorem pay2_apply (x0 : Vec Ideal S10000x128 .f32) (x1 : Vec Ideal S128x64 .f32) (p : Fin 10000) (q : Fin 64) :
    k0_pay2 x0 x1 (ix2 p q) = ∑ k : Fin 128, x0 (ix2 p k) * x1 (ix2 k q) := by
  unfold k0_pay2
  rw [shapeCast_self]
  exact Cert.LibPlainMatmul.matmul_zero_apply dot_S10000x128_S128x64_S10000x64_1_0_0_1_n_n rfl rfl rfl rfl rfl rfl (some .fp32) x0 x1 p q

/-- The index maps: the row-blocked windows sit at block `(t, 0)`, the matrices at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of block `t` is row `10000 t + p` of the array. -/
def rowOf (t : Fin cfg0.N) (p : Fin 10000) : Fin 100000 :=
  ⟨t.val * 10000 + p.val, by
    have h : t.val < 10 := Nat.lt_of_lt_of_eq t.isLt (show cfg0.N = 10 from N_0)
    have := p.isLt; omega⟩

/-- The features' block at a point, by coordinates. -/
theorem iblk_x (c : Dev nD) (t : Fin cfg0.N) (p : Fin 10000) (k : Fin 128) :
    (iblk0 V c 0 t : Vec Ideal S10000x128 .f32) (ix2 p k) = (V c main_arg0 : S100000x128.Idx → EReal) (ix2 (rowOf t p) k) := by
  unfold iblk0
  rw [View.read_apply]
  show V c main_arg0 _ = V c main_arg0 _
  refine congrArg _ (funext fun a => Fin.ext ?_)
  obtain ⟨e0, e1, -⟩ := idx_facts t
  match a with
  | ⟨0, _⟩ => show win0_0.index t 0 * 10000 + 1 * p.val = t.val * 10000 + p.val; rw [e0]; omega
  | ⟨1, _⟩ => show win0_0.index t 1 * 128 + 1 * k.val = k.val; rw [e1]; omega

/-- The first matrix's block at any point is the matrix. -/
theorem iblk_w1 (c : Dev nD) (t : Fin cfg0.N) (k : Fin 128) (q : Fin 64) :
    (iblk0 V c 1 t : Vec Ideal S128x64 .f32) (ix2 k q) = (V c main_v4 : S128x64.Idx → EReal) (ix2 k q) := by
  unfold iblk0
  rw [View.read_apply]
  show V c main_v4 _ = V c main_v4 _
  refine congrArg _ (funext fun a => Fin.ext ?_)
  obtain ⟨-, -, e2, e3, -⟩ := idx_facts t
  match a with
  | ⟨0, _⟩ => show win0_1.index t 0 * 128 + 1 * k.val = k.val; rw [e2]; omega
  | ⟨1, _⟩ => show win0_1.index t 1 * 64 + 1 * q.val = q.val; rw [e3]; omega

/-- The second matrix's block at any point is the matrix. -/
theorem iblk_w2 (c : Dev nD) (t : Fin cfg0.N) (k : Fin 128) (q : Fin 64) :
    (iblk0 V c 2 t : Vec Ideal S128x64 .f32) (ix2 k q) = (V c main_v5 : S128x64.Idx → EReal) (ix2 k q) := by
  unfold iblk0
  rw [View.read_apply]
  show V c main_v5 _ = V c main_v5 _
  refine congrArg _ (funext fun a => Fin.ext ?_)
  obtain ⟨-, -, -, -, e4, e5, -⟩ := idx_facts t
  match a with
  | ⟨0, _⟩ => show win0_2.index t 0 * 128 + 1 * k.val = k.val; rw [e4]; omega
  | ⟨1, _⟩ => show win0_2.index t 1 * 64 + 1 * q.val = q.val; rw [e5]; omega

/-- A whole result read through the first result's block at a point, by coordinates. -/
theorem read_blk3 (c : Dev nD) (t : Fin cfg0.N) (G : S100000x64.Idx → EReal) (p : Fin 10000) (q : Fin 64) :
    ((cfg0.win 3).blk t).view.read (Elt Ideal) G (ix2 p q) = G (ix2 (rowOf t p) q) := by
  rw [View.read_apply]
  show G _ = G _
  refine congrArg _ (funext fun a => Fin.ext ?_)
  obtain ⟨-, -, -, -, -, -, e6, e7, -⟩ := idx_facts t
  match a with
  | ⟨0, _⟩ => show win0_3.index t 0 * 10000 + 1 * p.val = t.val * 10000 + p.val; rw [e6]; omega
  | ⟨1, _⟩ => show win0_3.index t 1 * 64 + 1 * q.val = q.val; rw [e7]; omega

theorem read_blk4 (c : Dev nD) (t : Fin cfg0.N) (G : S100000x64.Idx → EReal) (p : Fin 10000) (q : Fin 64) :
    ((cfg0.win 4).blk t).view.read (Elt Ideal) G (ix2 p q) = G (ix2 (rowOf t p) q) := by
  rw [View.read_apply]
  show G _ = G _
  refine congrArg _ (funext fun a => Fin.ext ?_)
  obtain ⟨-, -, -, -, -, -, -, -, e8, e9⟩ := idx_facts t
  match a with
  | ⟨0, _⟩ => show win0_4.index t 0 * 10000 + 1 * p.val = t.val * 10000 + p.val; rw [e8]; omega
  | ⟨1, _⟩ => show win0_4.index t 1 * 64 + 1 * q.val = q.val; rw [e9]; omega

/-- What point `t` writes back to the first result is block `t` of `x · w₁`. -/
theorem flushed3_eq (c : Dev nD) (t : Fin cfg0.N) :
    (dat0 V c).flushed 3 t = ((cfg0.win 3).blk t).view.read (Elt Ideal) (mm (V c main_arg0) (V c main_v4)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  refine (pay1_apply (iblk0 V c 0 t) (iblk0 V c 1 t) p q).trans ?_
  rw [read_blk3 c t _ p q]
  unfold mm
  rw [of2_ix2]
  exact Finset.sum_congr rfl fun k _ => by rw [iblk_x V c t p k, iblk_w1 V c t k q]

/-- What point `t` writes back to the second result is block `t` of `x · w₂`. -/
theorem flushed4_eq (c : Dev nD) (t : Fin cfg0.N) :
    (dat0 V c).flushed 4 t = ((cfg0.win 4).blk t).view.read (Elt Ideal) (mm (V c main_arg0) (V c main_v5)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  refine (pay2_apply (iblk0 V c 0 t) (iblk0 V c 2 t) p q).trans ?_
  rw [read_blk4 c t _ p q]
  unfold mm
  rw [of2_ix2]
  exact Finset.sum_congr rfl fun k _ => by rw [iblk_x V c t p k, iblk_w2 V c t k q]

/-- An index is in point `t`'s block of the first result iff each coordinate is in the block's range. -/
theorem mem_blk3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v6_0).slice (win0_3.rect t)).set ↔ _
  rw [View.set_slice_whole, Rect.mem_set_unit]
  exact Iff.rfl

theorem mem_blk4 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v6_1).slice (win0_4.rect t)).set ↔ _
  rw [View.set_slice_whole, Rect.mem_set_unit]
  exact Iff.rfl

/-- The point whose block holds row `r`: `r / 10000`. -/
def pointOf (i : S100000x64.Idx) : Fin cfg0.N :=
  ⟨(i 0).val / 10000, by
    have h : (i 0).val < 100000 := (i 0).isLt
    exact Nat.lt_of_lt_of_eq (show (i 0).val / 10000 < 10 by omega) (show cfg0.N = 10 from N_0).symm⟩

/-- The ten row blocks cover the first result. -/
theorem cover3 (i : S100000x64.Idx) : ∃ t : Fin cfg0.N, (cfg0.win 3).flush t = true ∧ i ∈ ((cfg0.win 3).blk t).view.set := by
  refine ⟨pointOf i, flush0_3 _, ?_⟩
  rw [mem_blk3]
  obtain ⟨-, -, -, -, -, -, e6, e7, -⟩ := idx_facts (pointOf i)
  have ht : (pointOf i).val = (i 0).val / 10000 := rfl
  have hi1 : (i 1).val < 64 := (i 1).isLt
  intro a
  match a with
  | ⟨0, _⟩ => show win0_3.index (pointOf i) 0 * 10000 ≤ (i 0).val ∧ (i 0).val < win0_3.index (pointOf i) 0 * 10000 + 10000; rw [e6, ht]; omega
  | ⟨1, _⟩ => show win0_3.index (pointOf i) 1 * 64 ≤ (i 1).val ∧ (i 1).val < win0_3.index (pointOf i) 1 * 64 + 64; rw [e7]; omega

theorem cover4 (i : S100000x64.Idx) : ∃ t : Fin cfg0.N, (cfg0.win 4).flush t = true ∧ i ∈ ((cfg0.win 4).blk t).view.set := by
  refine ⟨pointOf i, flush0_4 _, ?_⟩
  rw [mem_blk4]
  obtain ⟨-, -, -, -, -, -, -, -, e8, e9⟩ := idx_facts (pointOf i)
  have ht : (pointOf i).val = (i 0).val / 10000 := rfl
  have hi1 : (i 1).val < 64 := (i 1).isLt
  intro a
  match a with
  | ⟨0, _⟩ => show win0_4.index (pointOf i) 0 * 10000 ≤ (i 0).val ∧ (i 0).val < win0_4.index (pointOf i) 0 * 10000 + 10000; rw [e8, ht]; omega
  | ⟨1, _⟩ => show win0_4.index (pointOf i) 1 * 64 ≤ (i 1).val ∧ (i 1).val < win0_4.index (pointOf i) 1 * 64 + 64; rw [e9]; omega

/-- THE FIRST RESULT after the launch: `x · w₁`. -/
theorem final3 (c : Dev nD) : (dat0 V c).arrAt 3 cfg0.N = mm (V c main_arg0) (V c main_v4) :=
  (dat0 V c).arrAt_eq_of_cover 3 _ (fun t _ => flushed3_eq V c t) cover3

/-- THE SECOND RESULT after the launch: `x · w₂`. -/
theorem final4 (c : Dev nD) : (dat0 V c).arrAt 4 cfg0.N = mm (V c main_arg0) (V c main_v5) :=
  (dat0 V c).arrAt_eq_of_cover 4 _ (fun t _ => flushed4_eq V c t) cover4

end Cert.KernelIdeal.Region0

end
-- ==== Proof.Region1.lean ====
/-
  The second launch (the first layer's combine), read as a whole array.

  Over ten blocks of 10000 rows it adds the two `[100000, 64]` operands row by row, adds the bias row `[1, 64]`
  (held whole) to every row, takes the positive part and writes the rows back: the result is
  `max ((y_root + agg) + b, 0)` entry by entry.
-/
import proofs.«176011_j850403525401_2_alg».proof.Proof.Gen.KernelIdeal.Frame
import proofs.«176011_j850403525401_2_alg».proof.Proof.Glue
import Idealize.ShloMosaic.Lib.Pipeline.Value
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The block's value at `(p, q)`: the two operands and the bias added, then the positive part. -/
theorem pay_apply (x0 x1 : Vec Ideal S10000x64 .f32) (x2 : Vec Ideal S1x64 .f32) (p : Fin 10000) (q : Fin 64) :
    k1_pay1 x0 x1 x2 (ix2 p q) = max ((x0 (ix2 p q) + x1 (ix2 p q)) + x2 (ix2 (0 : Fin 1) q)) 0 := by
  unfold k1_pay1
  simp only [shapeCast_self]
  show max ((x0 (ix2 p q) + x1 (ix2 p q)) + broadcastTo S10000x64 x2 broadcasts_S1x64_S10000x64 (ix2 p q)) (Ideal.ofBits .f32 0x00000000#32) = _
  rw [broadcastTo_1b_ab_apply, Ideal.ofBits_zero_f32]

/-- The index maps: the row-blocked windows sit at block `(t, 0)`, the bias row at `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is row `10000 t + p` of the array. -/
def rowOf (t : Fin cfg1.N) (p : Fin 10000) : Fin 100000 :=
  ⟨t.val * 10000 + p.val, by
    have h : t.val < 10 := Nat.lt_of_lt_of_eq t.isLt (show cfg1.N = 10 from N_1)
    have := p.isLt; omega⟩

theorem iblk_a (c : Dev nD) (t : Fin cfg1.N) (p : Fin 10000) (q : Fin 64) :
    (iblk1 V c 0 t : Vec Ideal S10000x64 .f32) (ix2 p q) = (V c main_v6_0 : S100000x64.Idx → EReal) (ix2 (rowOf t p) q) := by
  unfold iblk1
  rw [View.read_apply]
  show V c main_v6_0 _ = V c main_v6_0 _
  refine congrArg _ (funext fun a => Fin.ext ?_)
  obtain ⟨e0, e1, -⟩ := idx_facts t
  match a with
  | ⟨0, _⟩ => show win1_0.index t 0 * 10000 + 1 * p.val = t.val * 10000 + p.val; rw [e0]; omega
  | ⟨1, _⟩ => show win1_0.index t 1 * 64 + 1 * q.val = q.val; rw [e1]; omega

theorem iblk_b (c : Dev nD) (t : Fin cfg1.N) (p : Fin 10000) (q : Fin 64) :
    (iblk1 V c 1 t : Vec Ideal S10000x64 .f32) (ix2 p q) = (V c main_v16 : S100000x64.Idx → EReal) (ix2 (rowOf t p) q) := by
  unfold iblk1
  rw [View.read_apply]
  show V c main_v16 _ = V c main_v16 _
  refine congrArg _ (funext fun a => Fin.ext ?_)
  obtain ⟨-, -, e2, e3, -⟩ := idx_facts t
  match a with
  | ⟨0, _⟩ => show win1_1.index t 0 * 10000 + 1 * p.val = t.val * 10000 + p.val; rw [e2]; omega
  | ⟨1, _⟩ => show win1_1.index t 1 * 64 + 1 * q.val = q.val; rw [e3]; omega

theorem iblk_bias (c : Dev nD) (t : Fin cfg1.N) (q : Fin 64) :
    (iblk1 V c 2 t : Vec Ideal S1x64 .f32) (ix2 (0 : Fin 1) q) = (V c main_v17 : S1x64.Idx → EReal) (ix2 (0 : Fin 1) q) := by
  unfold iblk1
  rw [View.read_apply]
  show V c main_v17 _ = V c main_v17 _
  refine congrArg _ (funext fun a => Fin.ext ?_)
  obtain ⟨-, -, -, -, e4, e5, -⟩ := idx_facts t
  match a with
  | ⟨0, _⟩ => show win1_2.index t 0 * 1 + 1 * 0 = 0; rw [e4]
  | ⟨1, _⟩ => show win1_2.index t 1 * 64 + 1 * q.val = q.val; rw [e5]; omega

theorem read_blk3 (c : Dev nD) (t : Fin cfg1.N) (G : S100000x64.Idx → EReal) (p : Fin 10000) (q : Fin 64) :
    ((cfg1.win 3).blk t).view.read (Elt Ideal) G (ix2 p q) = G (ix2 (rowOf t p) q) := by
  rw [View.read_apply]
  show G _ = G _
  refine congrArg _ (funext fun a => Fin.ext ?_)
  obtain ⟨-, -, -, -, -, -, e6, e7⟩ := idx_facts t
  match a with
  | ⟨0, _⟩ => show win1_3.index t 0 * 10000 + 1 * p.val = t.val * 10000 + p.val; rw [e6]; omega
  | ⟨1, _⟩ => show win1_3.index t 1 * 64 + 1 * q.val = q.val; rw [e7]; omega

/-- What point `t` writes back is block `t` of the positive part of the sum. -/
theorem flushed3_eq (c : Dev nD) (t : Fin cfg1.N) :
    (dat1 V c).flushed 3 t
      = ((cfg1.win 3).blk t).view.read (Elt Ideal) (relu (pre (V c main_v6_0) (V c main_v16) (V c main_v17))) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  refine (pay_apply (iblk1 V c 0 t) (iblk1 V c 1 t) (iblk1 V c 2 t) p q).trans ?_
  rw [read_blk3 c t _ p q]
  show _ = max (pre (V c main_v6_0) (V c main_v16) (V c main_v17) (ix2 (rowOf t p) q)) 0
  unfold pre
  rw [of2_ix2, iblk_a V c t p q, iblk_b V c t p q, iblk_bias V c t q]

theorem mem_blk3 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v18).slice (win1_3.rect t)).set ↔ _
  rw [View.set_slice_whole, Rect.mem_set_unit]
  exact Iff.rfl

def pointOf (i : S100000x64.Idx) : Fin cfg1.N :=
  ⟨(i 0).val / 10000, by
    have h : (i 0).val < 100000 := (i 0).isLt
    exact Nat.lt_of_lt_of_eq (show (i 0).val / 10000 < 10 by omega) (show cfg1.N = 10 from N_1).symm⟩

theorem cover3 (i : S100000x64.Idx) : ∃ t : Fin cfg1.N, (cfg1.win 3).flush t = true ∧ i ∈ ((cfg1.win 3).blk t).view.set := by
  refine ⟨pointOf i, flush1_3 _, ?_⟩
  rw [mem_blk3]
  obtain ⟨-, -, -, -, -, -, e6, e7⟩ := idx_facts (pointOf i)
  have ht : (pointOf i).val = (i 0).val / 10000 := rfl
  have hi1 : (i 1).val < 64 := (i 1).isLt
  intro a
  match a with
  | ⟨0, _⟩ => show win1_3.index (pointOf i) 0 * 10000 ≤ (i 0).val ∧ (i 0).val < win1_3.index (pointOf i) 0 * 10000 + 10000; rw [e6, ht]; omega
  | ⟨1, _⟩ => show win1_3.index (pointOf i) 1 * 64 ≤ (i 1).val ∧ (i 1).val < win1_3.index (pointOf i) 1 * 64 + 64; rw [e7]; omega

/-- THE RESULT after the launch: the positive part of `(y_root + agg) + b`. -/
theorem final3 (c : Dev nD) :
    (dat1 V c).arrAt 3 cfg1.N = relu (pre (V c main_v6_0) (V c main_v16) (V c main_v17)) :=
  (dat1 V c).arrAt_eq_of_cover 3 _ (fun t _ => flushed3_eq V c t) cover3

end Cert.KernelIdeal.Region1

end
-- ==== Proof.Region2.lean ====
/-
  The third launch (the second layer's two products), read as whole arrays.

  As the first launch, over the hidden features `h : [100000, 64]` and two `[64, 16]` matrices: ten blocks of
  10000 rows, each multiplied by both matrices, the `[10000, 16]` products written back to the same rows.
  Each result is `h · w` entry by entry.
-/
import proofs.«176011_j850403525401_2_alg».proof.Proof.Gen.KernelIdeal.Frame
import proofs.«176011_j850403525401_2_alg».proof.Proof.LibPlainMatmul
import proofs.«176011_j850403525401_2_alg».proof.Proof.Glue
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The block's product at `(p, q)`. -/
theorem pay2_apply (x0 : Vec Ideal S10000x64 .f32) (x1 : Vec Ideal S64x16 .f32) (p : Fin 10000) (q : Fin 16) :
    k2_pay2 x0 x1 (ix2 p q) = ∑ k : Fin 64, x0 (ix2 p k) * x1 (ix2 k q) := by
  unfold k2_pay2 k2_pay1
  rw [shapeCast_self, shapeCast_self]
  exact Cert.LibPlainMatmul.matmul_zero_apply dot_S10000x64_S64x16_S10000x16_1_0_0_1_n_n rfl rfl rfl rfl rfl rfl (some .fp32) x0 x1 p q

theorem pay3_apply (x0 : Vec Ideal S10000x64 .f32) (x1 : Vec Ideal S64x16 .f32) (p : Fin 10000) (q : Fin 16) :
    k2_pay3 x0 x1 (ix2 p q) = ∑ k : Fin 64, x0 (ix2 p k) * x1 (ix2 k q) := by
  unfold k2_pay3 k2_pay1
  rw [shapeCast_self, shapeCast_self]
  exact Cert.LibPlainMatmul.matmul_zero_apply dot_S10000x64_S64x16_S10000x16_1_0_0_1_n_n rfl rfl rfl rfl rfl rfl (some .fp32) x0 x1 p q

/-- The index maps: the row-blocked windows sit at block `(t, 0)`, the matrices at `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `p` of block `t` is row `10000 t + p` of the array. -/
def rowOf (t : Fin cfg2.N) (p : Fin 10000) : Fin 100000 :=
  ⟨t.val * 10000 + p.val, by
    have h : t.val < 10 := Nat.lt_of_lt_of_eq t.isLt (show cfg2.N = 10 from N_2)
    have := p.isLt; omega⟩

/-- The hidden features' block at a point, by coordinates. -/
theorem iblk_x (c : Dev nD) (t : Fin cfg2.N) (p : Fin 10000) (k : Fin 64) :
    (iblk2 V c 0 t : Vec Ideal S10000x64 .f32) (ix2 p k) = (V c main_v18 : S100000x64.Idx → EReal) (ix2 (rowOf t p) k) := by
  unfold iblk2
  rw [View.read_apply]
  show V c main_v18 _ = V c main_v18 _
  refine congrArg _ (funext fun a => Fin.ext ?_)
  obtain ⟨e0, e1, -⟩ := idx_facts t
  match a with
  | ⟨0, _⟩ => show win2_0.index t 0 * 10000 + 1 * p.val = t.val * 10000 + p.val; rw [e0]; omega
  | ⟨1, _⟩ => show win2_0.index t 1 * 64 + 1 * k.val = k.val; rw [e1]; omega

/-- The first matrix's block at any point is the matrix. -/
theorem iblk_w1 (c : Dev nD) (t : Fin cfg2.N) (k : Fin 64) (q : Fin 16) :
    (iblk2 V c 1 t : Vec Ideal S64x16 .f32) (ix2 k q) = (V c main_v19 : S64x16.Idx → EReal) (ix2 k q) := by
  unfold iblk2
  rw [View.read_apply]
  show V c main_v19 _ = V c main_v19 _
  refine congrArg _ (funext fun a => Fin.ext ?_)
  obtain ⟨-, -, e2, e3, -⟩ := idx_facts t
  match a with
  | ⟨0, _⟩ => show win2_1.index t 0 * 64 + 1 * k.val = k.val; rw [e2]; omega
  | ⟨1, _⟩ => show win2_1.index t 1 * 16 + 1 * q.val = q.val; rw [e3]; omega

/-- The second matrix's block at any point is the matrix. -/
theorem iblk_w2 (c : Dev nD) (t : Fin cfg2.N) (k : Fin 64) (q : Fin 16) :
    (iblk2 V c 2 t : Vec Ideal S64x16 .f32) (ix2 k q) = (V c main_v20 : S64x16.Idx → EReal) (ix2 k q) := by
  unfold iblk2
  rw [View.read_apply]
  show V c main_v20 _ = V c main_v20 _
  refine congrArg _ (funext fun a => Fin.ext ?_)
  obtain ⟨-, -, -, -, e4, e5, -⟩ := idx_facts t
  match a with
  | ⟨0, _⟩ => show win2_2.index t 0 * 64 + 1 * k.val = k.val; rw [e4]; omega
  | ⟨1, _⟩ => show win2_2.index t 1 * 16 + 1 * q.val = q.val; rw [e5]; omega

/-- A whole result read through the first result's block at a point, by coordinates. -/
theorem read_blk3 (c : Dev nD) (t : Fin cfg2.N) (G : S100000x16.Idx → EReal) (p : Fin 10000) (q : Fin 16) :
    ((cfg2.win 3).blk t).view.read (Elt Ideal) G (ix2 p q) = G (ix2 (rowOf t p) q) := by
  rw [View.read_apply]
  show G _ = G _
  refine congrArg _ (funext fun a => Fin.ext ?_)
  obtain ⟨-, -, -, -, -, -, e6, e7, -⟩ := idx_facts t
  match a with
  | ⟨0, _⟩ => show win2_3.index t 0 * 10000 + 1 * p.val = t.val * 10000 + p.val; rw [e6]; omega
  | ⟨1, _⟩ => show win2_3.index t 1 * 16 + 1 * q.val = q.val; rw [e7]; omega

theorem read_blk4 (c : Dev nD) (t : Fin cfg2.N) (G : S100000x16.Idx → EReal) (p : Fin 10000) (q : Fin 16) :
    ((cfg2.win 4).blk t).view.read (Elt Ideal) G (ix2 p q) = G (ix2 (rowOf t p) q) := by
  rw [View.read_apply]
  show G _ = G _
  refine congrArg _ (funext fun a => Fin.ext ?_)
  obtain ⟨-, -, -, -, -, -, -, -, e8, e9⟩ := idx_facts t
  match a with
  | ⟨0, _⟩ => show win2_4.index t 0 * 10000 + 1 * p.val = t.val * 10000 + p.val; rw [e8]; omega
  | ⟨1, _⟩ => show win2_4.index t 1 * 16 + 1 * q.val = q.val; rw [e9]; omega

/-- What point `t` writes back to the first result is block `t` of `h · w₁`. -/
theorem flushed3_eq (c : Dev nD) (t : Fin cfg2.N) :
    (dat2 V c).flushed 3 t = ((cfg2.win 3).blk t).view.read (Elt Ideal) (mm (V c main_v18) (V c main_v19)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x16) hz]
  funext j
  obtain ⟨p, q, rfl⟩ : ∃ (p : Fin 10000) (q : Fin 16), j = ix2 p q := ⟨j 0, j 1, eq_ix2 j⟩
  refine (pay2_apply (iblk2 V c 0 t) (iblk2 V c 1 t) p q).trans ?_
  rw [read_blk3 c t _ p q]
  unfold mm
  rw [of2_ix2]
  exact Finset.sum_congr rfl fun k _ => by rw [iblk_x V c t p k, iblk_w1 V c t k q]

/-- What point `t` writes back to the second result is block `t` of `h · w₂`. -/
theorem flushed4_eq (c : Dev nD) (t : Fin cfg2.N) :
    (dat2 V c).flushed 4 t = ((cfg2.win 4).blk t).view.read (Elt Ideal) (mm (V c main_v18) (V c main_v20)) := by
  show (cfg2.win 4).cut (grid2.coords t) ((dat2 V c).after 4 t) = _
  rw [after2_4]
  unfold out2_4
  rw [View.canon_unit_zero hz]
  simp only [View.ld_unit_zero (S := S10000x64) hz, View.ld_unit_zero (S := S64x16) hz]
  funext j
  obtain ⟨p, q, rfl⟩ : ∃ (p : Fin 10000) (q : Fin 16), j = ix2 p q := ⟨j 0, j 1, eq_ix2 j⟩
  refine (pay3_apply (iblk2 V c 0 t) (iblk2 V c 2 t) p q).trans ?_
  rw [read_blk4 c t _ p q]
  unfold mm
  rw [of2_ix2]
  exact Finset.sum_congr rfl fun k _ => by rw [iblk_x V c t p k, iblk_w2 V c t k q]

/-- An index is in point `t`'s block of the first result iff each coordinate is in the block's range. -/
theorem mem_blk3 (t : Fin cfg2.N) (i : S100000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v21_0).slice (win2_3.rect t)).set ↔ _
  rw [View.set_slice_whole, Rect.mem_set_unit]
  exact Iff.rfl

theorem mem_blk4 (t : Fin cfg2.N) (i : S100000x16.Idx) :
    i ∈ ((cfg2.win 4).blk t).view.set ↔ ∀ a : Fin 2, win2_4.index t a * S10000x16.size a ≤ (i a).val ∧ (i a).val < win2_4.index t a * S10000x16.size a + S10000x16.size a := by
  show i ∈ ((View.whole main_v21_1).slice (win2_4.rect t)).set ↔ _
  rw [View.set_slice_whole, Rect.mem_set_unit]
  exact Iff.rfl

/-- The point whose block holds row `r`: `r / 10000`. -/
def pointOf (i : S100000x16.Idx) : Fin cfg2.N :=
  ⟨(i 0).val / 10000, by
    have h : (i 0).val < 100000 := (i 0).isLt
    exact Nat.lt_of_lt_of_eq (show (i 0).val / 10000 < 10 by omega) (show cfg2.N = 10 from N_2).symm⟩

/-- The ten row blocks cover the first result. -/
theorem cover3 (i : S100000x16.Idx) : ∃ t : Fin cfg2.N, (cfg2.win 3).flush t = true ∧ i ∈ ((cfg2.win 3).blk t).view.set := by
  refine ⟨pointOf i, flush2_3 _, ?_⟩
  rw [mem_blk3]
  obtain ⟨-, -, -, -, -, -, e6, e7, -⟩ := idx_facts (pointOf i)
  have ht : (pointOf i).val = (i 0).val / 10000 := rfl
  have hi1 : (i 1).val < 16 := (i 1).isLt
  intro a
  match a with
  | ⟨0, _⟩ => show win2_3.index (pointOf i) 0 * 10000 ≤ (i 0).val ∧ (i 0).val < win2_3.index (pointOf i) 0 * 10000 + 10000; rw [e6, ht]; omega
  | ⟨1, _⟩ => show win2_3.index (pointOf i) 1 * 16 ≤ (i 1).val ∧ (i 1).val < win2_3.index (pointOf i) 1 * 16 + 16; rw [e7]; omega

theorem cover4 (i : S100000x16.Idx) : ∃ t : Fin cfg2.N, (cfg2.win 4).flush t = true ∧ i ∈ ((cfg2.win 4).blk t).view.set := by
  refine ⟨pointOf i, flush2_4 _, ?_⟩
  rw [mem_blk4]
  obtain ⟨-, -, -, -, -, -, -, -, e8, e9⟩ := idx_facts (pointOf i)
  have ht : (pointOf i).val = (i 0).val / 10000 := rfl
  have hi1 : (i 1).val < 16 := (i 1).isLt
  intro a
  match a with
  | ⟨0, _⟩ => show win2_4.index (pointOf i) 0 * 10000 ≤ (i 0).val ∧ (i 0).val < win2_4.index (pointOf i) 0 * 10000 + 10000; rw [e8, ht]; omega
  | ⟨1, _⟩ => show win2_4.index (pointOf i) 1 * 16 ≤ (i 1).val ∧ (i 1).val < win2_4.index (pointOf i) 1 * 16 + 16; rw [e9]; omega

/-- THE FIRST RESULT after the launch: `h · w₁`. -/
theorem final3 (c : Dev nD) : (dat2 V c).arrAt 3 cfg2.N = mm (V c main_v18) (V c main_v19) :=
  (dat2 V c).arrAt_eq_of_cover 3 _ (fun t _ => flushed3_eq V c t) cover3

/-- THE SECOND RESULT after the launch: `h · w₂`. -/
theorem final4 (c : Dev nD) : (dat2 V c).arrAt 4 cfg2.N = mm (V c main_v18) (V c main_v20) :=
  (dat2 V c).arrAt_eq_of_cover 4 _ (fun t _ => flushed4_eq V c t) cover4

end Cert.KernelIdeal.Region2

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«176011_j850403525401_2_alg».proof.Proof.LibRows
import proofs.«176011_j850403525401_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.Region3.lean ====
/-
  The fourth launch (the second layer's combine with its log-softmax), read as a whole array.

  Over ten blocks of 10000 rows it adds the two `[100000, 16]` operands and the bias row, then, row by row,
  subtracts the row's maximum, and subtracts the logarithm of the row's sum of exponentials. Every step stays
  inside one row, so a block's rows are the whole array's rows: the result is the row-wise log-softmax of
  `(y_root + agg) + b`.
-/
import proofs.«176011_j850403525401_2_alg».proof.Proof.Gen.KernelIdeal.Frame
import proofs.«176011_j850403525401_2_alg».proof.Proof.Glue
import proofs.«176011_j850403525401_2_alg».proof.Proof.LibMatrixReduce
import proofs.«176011_j850403525401_2_alg».proof.Proof.LibRowMax
import Idealize.ShloMosaic.Lib.Pipeline.Value
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.Region3

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The body after the bias is added, on any block `y`: subtract each row's maximum, then the logarithm of each
    row's sum of exponentials. -/
def rowwise (y : FVec Ideal S10000x16 .f32) : FVec Ideal S10000x16 .f32 :=
  subf
    (subf y (broadcastTo S10000x16 (shapeCast S10000x1
      (multiReduction .maximumf [1] S10000 y 0xFF800000#32 reduces_S10000x16_S10000 (.inl rfl) rfl) shapeCasts_S10000_S10000x1) broadcasts_S10000x1_S10000x16))
    (broadcastTo S10000x16 (log (shapeCast S10000x1
      (multiReduction .add [1] S10000
        (exp (subf y (broadcastTo S10000x16 (shapeCast S10000x1
          (multiReduction .maximumf [1] S10000 y 0xFF800000#32 reduces_S10000x16_S10000 (.inl rfl) rfl) shapeCasts_S10000_S10000x1) broadcasts_S10000x1_S10000x16)))
        0x00000000#32 reduces_S10000x16_S10000 (.inl rfl) rfl) shapeCasts_S10000_S10000x1)) broadcasts_S10000x1_S10000x16)

/-- The block's value: the row-wise body of the two operands and the bias added. -/
theorem pay_eq (x0 x1 : Vec Ideal S10000x16 .f32) (x2 : Vec Ideal S1x16 .f32) :
    k3_pay1 x0 x1 x2 = rowwise (addf (addf x0 x1) (broadcastTo S10000x16 x2 broadcasts_S1x16_S10000x16)) := by
  unfold k3_pay1 rowwise
  simp only [shapeCast_self]

/-- The two operands and the bias row added, at `(p, q)`. -/
theorem sum_apply (x0 x1 : Vec Ideal S10000x16 .f32) (x2 : Vec Ideal S1x16 .f32) (p : Fin 10000) (q : Fin 16) :
    (addf (addf x0 x1) (broadcastTo S10000x16 x2 broadcasts_S1x16_S10000x16) : FVec Ideal S10000x16 .f32) (ix2 p q)
      = (x0 (ix2 p q) + x1 (ix2 p q)) + x2 (ix2 (0 : Fin 1) q) := by
  show (x0 (ix2 p q) + x1 (ix2 p q)) + broadcastTo S10000x16 x2 broadcasts_S1x16_S10000x16 (ix2 p q) = _
  rw [broadcastTo_1b_ab_apply]

/-- The row-wise body at `(p, q)` is the log-softmax of row `p`. -/
theorem rowwise_apply (y : FVec Ideal S10000x16 .f32) (p : Fin 10000) (q : Fin 16) :
    rowwise y (ix2 p q) = lsmE y p q := by
  unfold rowwise
  generalize hM : (multiReduction .maximumf [1] S10000 y 0xFF800000#32 reduces_S10000x16_S10000 (.inl rfl) rfl : FVec Ideal S10000 .f32) = mv
  have hmax : ∀ p' : Fin 10000, mv (ix1 p') = rowMax y p' := fun p' => by
    rw [← hM]
    exact Cert.LibRowMax.rowMax_apply y 0xFF800000#32 reduces_S10000x16_S10000 (.inl rfl) rfl p'
  generalize hZ : subf y (broadcastTo S10000x16 (shapeCast S10000x1 mv shapeCasts_S10000_S10000x1) broadcasts_S10000x1_S10000x16) = z
  have hz : ∀ (p' : Fin 10000) (q' : Fin 16), z (ix2 p' q') = y (ix2 p' q') - rowMax y p' := fun p' q' => by
    rw [← hZ]
    show y (ix2 p' q') - broadcastTo S10000x16 (shapeCast S10000x1 mv shapeCasts_S10000_S10000x1) broadcasts_S10000x1_S10000x16 (ix2 p' q') = _
    rw [Cert.LibMatrixReduce.keptCol_apply (by decide) mv shapeCasts_S10000_S10000x1 broadcasts_S10000x1_S10000x16 p' q', hmax]
  generalize hS : (multiReduction .add [1] S10000 (exp z) 0x00000000#32 reduces_S10000x16_S10000 (.inl rfl) rfl : FVec Ideal S10000 .f32) = sv
  have hsum : ∀ p' : Fin 10000, sv (ix1 p') = ∑ c : Fin 16, Ideal.exp (z (ix2 p' c)) := fun p' => by
    rw [← hS]
    exact Cert.LibMatrixReduce.rowSum_apply (exp z) 0x00000000#32 reduces_S10000x16_S10000 (.inl rfl) rfl p'
  show z (ix2 p q) - broadcastTo S10000x16 (log (shapeCast S10000x1 sv shapeCasts_S10000_S10000x1)) broadcasts_S10000x1_S10000x16 (ix2 p q) = _
  rw [Cert.Rows.bcast_col (by decide) _ broadcasts_S10000x1_S10000x16 p q]
  show z (ix2 p q) - Ideal.log (shapeCast S10000x1 sv shapeCasts_S10000_S10000x1 (ix2 p 0)) = _
  rw [Cert.Rows.cast_col, hsum, hz]
  unfold lsmE
  exact congrArg (fun t => (y (ix2 p q) - rowMax y p) - Ideal.log t) (Finset.sum_congr rfl fun c _ => by rw [hz])

/-- The index maps: the row-blocked windows sit at block `(t, 0)`, the bias row at `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of block `t` is row `10000 t + p` of the array. -/
def rowOf (t : Fin cfg3.N) (p : Fin 10000) : Fin 100000 :=
  ⟨t.val * 10000 + p.val, by
    have h : t.val < 10 := Nat.lt_of_lt_of_eq t.isLt (show cfg3.N = 10 from N_3)
    have := p.isLt; omega⟩

theorem iblk_a (c : Dev nD) (t : Fin cfg3.N) (p : Fin 10000) (q : Fin 16) :
    (iblk3 V c 0 t : Vec Ideal S10000x16 .f32) (ix2 p q) = (V c main_v21_0 : S100000x16.Idx → EReal) (ix2 (rowOf t p) q) := by
  unfold iblk3
  rw [View.read_apply]
  show V c main_v21_0 _ = V c main_v21_0 _
  refine congrArg _ (funext fun a => Fin.ext ?_)
  obtain ⟨e0, e1, -⟩ := idx_facts t
  match a with
  | ⟨0, _⟩ => show win3_0.index t 0 * 10000 + 1 * p.val = t.val * 10000 + p.val; rw [e0]; omega
  | ⟨1, _⟩ => show win3_0.index t 1 * 16 + 1 * q.val = q.val; rw [e1]; omega

theorem iblk_b (c : Dev nD) (t : Fin cfg3.N) (p : Fin 10000) (q : Fin 16) :
    (iblk3 V c 1 t : Vec Ideal S10000x16 .f32) (ix2 p q) = (V c main_v31 : S100000x16.Idx → EReal) (ix2 (rowOf t p) q) := by
  unfold iblk3
  rw [View.read_apply]
  show V c main_v31 _ = V c main_v31 _
  refine congrArg _ (funext fun a => Fin.ext ?_)
  obtain ⟨-, -, e2, e3, -⟩ := idx_facts t
  match a with
  | ⟨0, _⟩ => show win3_1.index t 0 * 10000 + 1 * p.val = t.val * 10000 + p.val; rw [e2]; omega
  | ⟨1, _⟩ => show win3_1.index t 1 * 16 + 1 * q.val = q.val; rw [e3]; omega

theorem iblk_bias (c : Dev nD) (t : Fin cfg3.N) (q : Fin 16) :
    (iblk3 V c 2 t : Vec Ideal S1x16 .f32) (ix2 (0 : Fin 1) q) = (V c main_v32 : S1x16.Idx → EReal) (ix2 (0 : Fin 1) q) := by
  unfold iblk3
  rw [View.read_apply]
  show V c main_v32 _ = V c main_v32 _
  refine congrArg _ (funext fun a => Fin.ext ?_)
  obtain ⟨-, -, -, -, e4, e5, -⟩ := idx_facts t
  match a with
  | ⟨0, _⟩ => show win3_2.index t 0 * 1 + 1 * 0 = 0; rw [e4]
  | ⟨1, _⟩ => show win3_2.index t 1 * 16 + 1 * q.val = q.val; rw [e5]; omega

theorem read_blk3 (c : Dev nD) (t : Fin cfg3.N) (G : S100000x16.Idx → EReal) (p : Fin 10000) (q : Fin 16) :
    ((cfg3.win 3).blk t).view.read (Elt Ideal) G (ix2 p q) = G (ix2 (rowOf t p) q) := by
  rw [View.read_apply]
  show G _ = G _
  refine congrArg _ (funext fun a => Fin.ext ?_)
  obtain ⟨-, -, -, -, -, -, e6, e7⟩ := idx_facts t
  match a with
  | ⟨0, _⟩ => show win3_3.index t 0 * 10000 + 1 * p.val = t.val * 10000 + p.val; rw [e6]; omega
  | ⟨1, _⟩ => show win3_3.index t 1 * 16 + 1 * q.val = q.val; rw [e7]; omega

/-- What point `t` writes back is block `t` of the row-wise log-softmax of the sum. -/
theorem flushed3_eq (c : Dev nD) (t : Fin cfg3.N) :
    (dat3 V c).flushed 3 t
      = ((cfg3.win 3).blk t).view.read (Elt Ideal) (of2 (lsmE (pre (V c main_v21_0) (V c main_v31) (V c main_v32)))) := by
  show (cfg3.win 3).cut (grid3.coords t) ((dat3 V c).after 3 t) = _
  rw [after3_3]
  unfold out3_3
  rw [View.canon_unit_zero hz]
  simp only [View.ld_unit_zero (S := S10000x16) hz, View.ld_unit_zero (S := S1x16) hz]
  funext j
  obtain ⟨p, q, rfl⟩ : ∃ (p : Fin 10000) (q : Fin 16), j = ix2 p q := ⟨j 0, j 1, eq_ix2 j⟩
  refine (congrFun (pay_eq (iblk3 V c 0 t) (iblk3 V c 1 t) (iblk3 V c 2 t)) (ix2 p q)).trans ?_
  rw [rowwise_apply, read_blk3 c t _ p q, of2_ix2]
  refine lsmE_congr _ _ p (rowOf t p) (fun c' => ?_) q
  rw [sum_apply (iblk3 V c 0 t) (iblk3 V c 1 t) (iblk3 V c 2 t) p c', iblk_a V c t p c', iblk_b V c t p c', iblk_bias V c t c']
  unfold pre
  rw [of2_ix2]

theorem mem_blk3 (t : Fin cfg3.N) (i : S100000x16.Idx) :
    i ∈ ((cfg3.win 3).blk t).view.set ↔ ∀ a : Fin 2, win3_3.index t a * S10000x16.size a ≤ (i a).val ∧ (i a).val < win3_3.index t a * S10000x16.size a + S10000x16.size a := by
  show i ∈ ((View.whole main_v33).slice (win3_3.rect t)).set ↔ _
  rw [View.set_slice_whole, Rect.mem_set_unit]
  exact Iff.rfl

def pointOf (i : S100000x16.Idx) : Fin cfg3.N :=
  ⟨(i 0).val / 10000, by
    have h : (i 0).val < 100000 := (i 0).isLt
    exact Nat.lt_of_lt_of_eq (show (i 0).val / 10000 < 10 by omega) (show cfg3.N = 10 from N_3).symm⟩

theorem cover3 (i : S100000x16.Idx) : ∃ t : Fin cfg3.N, (cfg3.win 3).flush t = true ∧ i ∈ ((cfg3.win 3).blk t).view.set := by
  refine ⟨pointOf i, flush3_3 _, ?_⟩
  rw [mem_blk3]
  obtain ⟨-, -, -, -, -, -, e6, e7⟩ := idx_facts (pointOf i)
  have ht : (pointOf i).val = (i 0).val / 10000 := rfl
  have hi1 : (i 1).val < 16 := (i 1).isLt
  intro a
  match a with
  | ⟨0, _⟩ => show win3_3.index (pointOf i) 0 * 10000 ≤ (i 0).val ∧ (i 0).val < win3_3.index (pointOf i) 0 * 10000 + 10000; rw [e6, ht]; omega
  | ⟨1, _⟩ => show win3_3.index (pointOf i) 1 * 16 ≤ (i 1).val ∧ (i 1).val < win3_3.index (pointOf i) 1 * 16 + 16; rw [e7]; omega

/-- THE RESULT after the launch: the row-wise log-softmax of `(y_root + agg) + b`. -/
theorem final3 (c : Dev nD) :
    (dat3 V c).arrAt 3 cfg3.N = of2 (lsmE (pre (V c main_v21_0) (V c main_v31) (V c main_v32))) :=
  (dat3 V c).arrAt_eq_of_cover 3 _ (fun t _ => flushed3_eq V c t) cover3

end Cert.KernelIdeal.Region3

end
-- ==== Proof.KernelValue.lean ====
/-
  The program's result buffer after its run, as one function of the argument arrays.

  The buffer contents at the boundaries between the program's eight segments are followed from the launch to the
  return: a stretch of host operations is read at the buffers the next launch takes, a launch leaves its results as
  whole-array functions of what it found, and every other buffer passes through unchanged. The second layer's input
  is the first layer's result, and the two index vectors computed before the first launch are still there when the
  fourth stretch uses them.
-/
import proofs.«176011_j850403525401_2_alg».proof.Proof.Gen.KernelIdeal.Frame
import proofs.«176011_j850403525401_2_alg».proof.Proof.HostRead
import proofs.«176011_j850403525401_2_alg».proof.Proof.Region0
import proofs.«176011_j850403525401_2_alg».proof.Proof.Region1
import proofs.«176011_j850403525401_2_alg».proof.Proof.Region2
import proofs.«176011_j850403525401_2_alg».proof.Proof.Region3

noncomputable section

namespace Cert.KernelIdeal.KernelValue

open Cert.KernelIdeal Cert.KernelIdeal.Gen Cert.KernelIdeal.HostRead Cert.GraphConv
open Idealize.ShloMosaic Idealize.ShloMosaic.TcCoe Idealize.SL.Sem Idealize.ShloMosaic.StableHlo

/-- The first layer's result: the positive part of the two products, the second one's rows taken and summed, and the bias. -/
def hidden (x : (⟨S100000x128, .f32⟩ : BufTy).Contents (Elt Ideal)) (a1 : (⟨S2x640000, .i32⟩ : BufTy).Contents (Elt Ideal))
    (w2 w3 : (⟨S64x128, .f32⟩ : BufTy).Contents (Elt Ideal)) (b4 : (⟨S64, .f32⟩ : BufTy).Contents (Elt Ideal)) :
    (⟨S100000x64, .f32⟩ : BufTy).Contents (Elt Ideal) :=
  relu (pre (mm x (transpose S128x64 [1, 0] w3 transposes_S64x128_S128x64_1_0))
    (Host.scatterAdd (F := Ideal) (φ := .f32) scatter_S100000x64_S640000x1_S640000x64_1_0_0_1
      (broadcastInDim S100000x64 ![] bcast_S_S100000x64 (constant (F := Ideal) S_ .f32 0x00000000#32))
      (dstCol (dstRaw a1))
      (Host.gather gather_S100000x64_S640000x1_S640000x64_1_0_n_n_0_1_164
        (mm x (transpose S128x64 [1, 0] w2 transposes_S64x128_S128x64_1_0)) (srcCol (srcRaw a1))))
    (shapeCast S1x64 b4 shapeCasts_S64_S1x64))

/-- The second layer's sum before the log-softmax. -/
def logits (h : (⟨S100000x64, .f32⟩ : BufTy).Contents (Elt Ideal)) (a1 : (⟨S2x640000, .i32⟩ : BufTy).Contents (Elt Ideal))
    (w5 w6 : (⟨S16x64, .f32⟩ : BufTy).Contents (Elt Ideal)) (b7 : (⟨S16, .f32⟩ : BufTy).Contents (Elt Ideal)) :
    (⟨S100000x16, .f32⟩ : BufTy).Contents (Elt Ideal) :=
  pre (mm h (transpose S64x16 [1, 0] w6 transposes_S16x64_S64x16_1_0))
    (Host.scatterAdd (F := Ideal) (φ := .f32) scatter_S100000x16_S640000x1_S640000x16_1_0_0_1
      (broadcastInDim S100000x16 ![] bcast_S_S100000x16 (constant (F := Ideal) S_ .f32 0x00000000#32))
      (dstCol (dstRaw a1))
      (Host.gather gather_S100000x16_S640000x1_S640000x16_1_0_n_n_0_1_116
        (mm h (transpose S64x16 [1, 0] w5 transposes_S16x64_S64x16_1_0)) (srcCol (srcRaw a1))))
    (shapeCast S1x16 b7 shapeCasts_S16_S1x16)

variable (m : (ℓ : Loc nD τ sig) → Buf (Elt Ideal) ℓ) (ρ : Dev nD → PrngReg)

/-- THE RESULT BUFFER at the last boundary. -/
theorem result_eq (c : Dev nD) :
    W8 m ρ c (Proc.devRef .tc main_v33)
      = of2 (lsmE (logits
          (hidden (m ((c : Thread nD τ).loc main_arg0)) (m ((c : Thread nD τ).loc main_arg1)) (m ((c : Thread nD τ).loc main_arg2))
            (m ((c : Thread nD τ).loc main_arg3)) (m ((c : Thread nD τ).loc main_arg4)))
          (m ((c : Thread nD τ).loc main_arg1)) (m ((c : Thread nD τ).loc main_arg5)) (m ((c : Thread nD τ).loc main_arg6))
          (m ((c : Thread nD τ).loc main_arg7)))) := by
  -- at the first launch
  have a0 : V1 m ρ c main_arg0 = m ((c : Thread nD τ).loc main_arg0) := h0_arg0 (W0 m ρ c)
  have a4 : V1 m ρ c main_v4 = transpose S128x64 [1, 0] (m ((c : Thread nD τ).loc main_arg3)) transposes_S64x128_S128x64_1_0 := h0_v4 (W0 m ρ c)
  have a5 : V1 m ρ c main_v5 = transpose S128x64 [1, 0] (m ((c : Thread nD τ).loc main_arg2)) transposes_S64x128_S128x64_1_0 := h0_v5 (W0 m ρ c)
  -- after it
  have y0 : W2 m ρ c (Proc.devRef .tc main_v6_0)
      = mm (m ((c : Thread nD τ).loc main_arg0)) (transpose S128x64 [1, 0] (m ((c : Thread nD τ).loc main_arg3)) transposes_S64x128_S128x64_1_0) :=
    (W2_arr m ρ c 3).trans ((Region0.final3 (V1 m ρ) c).trans (by rw [a0, a4]))
  have y1 : W2 m ρ c (Proc.devRef .tc main_v6_1)
      = mm (m ((c : Thread nD τ).loc main_arg0)) (transpose S128x64 [1, 0] (m ((c : Thread nD τ).loc main_arg2)) transposes_S64x128_S128x64_1_0) :=
    (W2_arr m ρ c 4).trans ((Region0.final4 (V1 m ρ) c).trans (by rw [a0, a5]))
  have k1 : W2 m ρ c (Proc.devRef .tc main_v1) = srcRaw (m ((c : Thread nD τ).loc main_arg1)) :=
    (W2_of_ne m ρ c main_v1 (by decide)).trans (h0_v1 (W0 m ρ c))
  have k3 : W2 m ρ c (Proc.devRef .tc main_v3) = dstRaw (m ((c : Thread nD τ).loc main_arg1)) :=
    (W2_of_ne m ρ c main_v3 (by decide)).trans (h0_v3 (W0 m ρ c))
  have k4 : W2 m ρ c (Proc.devRef .tc main_arg4) = m ((c : Thread nD τ).loc main_arg4) :=
    (W2_of_ne m ρ c main_arg4 (by decide)).trans (h0_arg4 (W0 m ρ c))
  have k5 : W2 m ρ c (Proc.devRef .tc main_arg5) = m ((c : Thread nD τ).loc main_arg5) :=
    (W2_of_ne m ρ c main_arg5 (by decide)).trans (h0_arg5 (W0 m ρ c))
  have k6 : W2 m ρ c (Proc.devRef .tc main_arg6) = m ((c : Thread nD τ).loc main_arg6) :=
    (W2_of_ne m ρ c main_arg6 (by decide)).trans (h0_arg6 (W0 m ρ c))
  have k7 : W2 m ρ c (Proc.devRef .tc main_arg7) = m ((c : Thread nD τ).loc main_arg7) :=
    (W2_of_ne m ρ c main_arg7 (by decide)).trans (h0_arg7 (W0 m ρ c))
  -- at the second launch
  have z0 : V3 m ρ c main_v6_0 = _ := (h1_v6_0 (W2 m ρ c)).trans y0
  have z16 : V3 m ρ c main_v16 = _ := (h1_v16 (W2 m ρ c)).trans (by rw [k3, y1, k1])
  have z17 : V3 m ρ c main_v17 = _ := (h1_v17 (W2 m ρ c)).trans (by rw [k4])
  -- after it
  have hh : W4 m ρ c (Proc.devRef .tc main_v18)
      = hidden (m ((c : Thread nD τ).loc main_arg0)) (m ((c : Thread nD τ).loc main_arg1)) (m ((c : Thread nD τ).loc main_arg2))
          (m ((c : Thread nD τ).loc main_arg3)) (m ((c : Thread nD τ).loc main_arg4)) :=
    (W4_arr m ρ c 3).trans ((Region1.final3 (V3 m ρ) c).trans (by rw [z0, z16, z17]; rfl))
  have l1 : W4 m ρ c (Proc.devRef .tc main_v1) = srcRaw (m ((c : Thread nD τ).loc main_arg1)) :=
    (W4_of_ne m ρ c main_v1 (by decide)).trans ((h1_v1 (W2 m ρ c)).trans k1)
  have l3 : W4 m ρ c (Proc.devRef .tc main_v3) = dstRaw (m ((c : Thread nD τ).loc main_arg1)) :=
    (W4_of_ne m ρ c main_v3 (by decide)).trans ((h1_v3 (W2 m ρ c)).trans k3)
  have l5 : W4 m ρ c (Proc.devRef .tc main_arg5) = m ((c : Thread nD τ).loc main_arg5) :=
    (W4_of_ne m ρ c main_arg5 (by decide)).trans ((h1_arg5 (W2 m ρ c)).trans k5)
  have l6 : W4 m ρ c (Proc.devRef .tc main_arg6) = m ((c : Thread nD τ).loc main_arg6) :=
    (W4_of_ne m ρ c main_arg6 (by decide)).trans ((h1_arg6 (W2 m ρ c)).trans k6)
  have l7 : W4 m ρ c (Proc.devRef .tc main_arg7) = m ((c : Thread nD τ).loc main_arg7) :=
    (W4_of_ne m ρ c main_arg7 (by decide)).trans ((h1_arg7 (W2 m ρ c)).trans k7)
  -- at the third launch
  have p18 : V5 m ρ c main_v18 = _ := (h2_v18 (W4 m ρ c)).trans hh
  have p19 : V5 m ρ c main_v19 = _ := (h2_v19 (W4 m ρ c)).trans (by rw [l6])
  have p20 : V5 m ρ c main_v20 = _ := (h2_v20 (W4 m ρ c)).trans (by rw [l5])
  -- after it
  have q0 : W6 m ρ c (Proc.devRef .tc main_v21_0) = _ :=
    (W6_arr m ρ c 3).trans ((Region2.final3 (V5 m ρ) c).trans (by rw [p18, p19]))
  have q1 : W6 m ρ c (Proc.devRef .tc main_v21_1) = _ :=
    (W6_arr m ρ c 4).trans ((Region2.final4 (V5 m ρ) c).trans (by rw [p18, p20]))
  have n1 : W6 m ρ c (Proc.devRef .tc main_v1) = srcRaw (m ((c : Thread nD τ).loc main_arg1)) :=
    (W6_of_ne m ρ c main_v1 (by decide)).trans ((h2_v1 (W4 m ρ c)).trans l1)
  have n3 : W6 m ρ c (Proc.devRef .tc main_v3) = dstRaw (m ((c : Thread nD τ).loc main_arg1)) :=
    (W6_of_ne m ρ c main_v3 (by decide)).trans ((h2_v3 (W4 m ρ c)).trans l3)
  have n7 : W6 m ρ c (Proc.devRef .tc main_arg7) = m ((c : Thread nD τ).loc main_arg7) :=
    (W6_of_ne m ρ c main_arg7 (by decide)).trans ((h2_arg7 (W4 m ρ c)).trans l7)
  -- at the fourth launch
  have r0 : V7 m ρ c main_v21_0 = _ := (h3_v21_0 (W6 m ρ c)).trans q0
  have r31 : V7 m ρ c main_v31 = _ := (h3_v31 (W6 m ρ c)).trans (by rw [n3, q1, n1])
  have r32 : V7 m ρ c main_v32 = _ := (h3_v32 (W6 m ρ c)).trans (by rw [n7])
  -- after it
  exact (W8_arr m ρ c 3).trans ((Region3.final3 (V7 m ρ) c).trans (by rw [r0, r31, r32]; rfl))

end Cert.KernelIdeal.KernelValue

end
-- ==== Proof.RefRead.lean ====
/-
  The reference's result buffer after its run, as one function of the argument arrays.

  The program is sixty-eight host operations in a line. Its first twenty-eight are the first layer and the positive part;
  the next twenty-five recompute the two index vectors and apply the second layer; the last fifteen are the log-softmax.
  Each stretch is read as one composed term of what its operands held before it, then each term is read entry by entry:
  a layer that sums the source rows first and multiplies by the weights after; the positive part; the row-wise
  log-softmax.
-/
import proofs.«176011_j850403525401_2_alg».proof.Proof.RefRunP
import proofs.«176011_j850403525401_2_alg».proof.Proof.Glue
import Idealize.ShloMosaic.Lib.Pipeline.Frame

noncomputable section

namespace Cert.ReferenceIdeal.RefRead

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The first layer and the positive part: operations 1 to 28. -/
abbrev opsA : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    unary main_arg3 main_v14 ((transpose S128x64 [1, 0] · transposes_S64x128_S128x64_1_0) : (⟨S64x128, .f32⟩ : BufTy).Contents (Elt F) → (⟨S128x64, .f32⟩ : BufTy).Contents (Elt F)),
    binary main_arg0 main_v14 main_v15 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg2 main_v16 ((transpose S128x64 [1, 0] · transposes_S64x128_S128x64_1_0) : (⟨S64x128, .f32⟩ : BufTy).Contents (Elt F) → (⟨S128x64, .f32⟩ : BufTy).Contents (Elt F)),
    binary main_v13 main_v16 main_v17 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    unary main_arg4 main_v19 (broadcastInDim S1x64 ![1] bcast_S64_S1x64_1 : (⟨S64, .f32⟩ : BufTy).Contents (Elt F) → (⟨S1x64, .f32⟩ : BufTy).Contents (Elt F)),
    unary main_v19 main_v20 (broadcastInDim S100000x64 ![0, 1] bcast_S1x64_S100000x64_0_1 : (⟨S1x64, .f32⟩ : BufTy).Contents (Elt F) → (⟨S100000x64, .f32⟩ : BufTy).Contents (Elt F)),
    binary main_v18 main_v20 main_v21 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v21) (TRef.of (T := ⟨S100000x64, .f32⟩) main_call0_v0) (TRef.of (T := ⟨S100000x64, .f32⟩) main_v22) maximumf ]

/-- The second layer: operations 29 to 53. -/
abbrev opsB : List (HloOp τ sig (Elt F)) :=
  [ unary main_arg1 main_v23 ((extractStridedSlice S1x640000 ![0, 0] · slices_S2x640000_S1x640000_0_0) : (⟨S2x640000, .i32⟩ : BufTy).Contents (Elt F) → (⟨S1x640000, .i32⟩ : BufTy).Contents (Elt F)),
    reshape main_v23 main_v24 rfl shapeCasts_S1x640000_S640000,
    unary main_arg1 main_v25 ((extractStridedSlice S1x640000 ![1, 0] · slices_S2x640000_S1x640000_1_0) : (⟨S2x640000, .i32⟩ : BufTy).Contents (Elt F) → (⟨S1x640000, .i32⟩ : BufTy).Contents (Elt F)),
    reshape main_v25 main_v26 rfl shapeCasts_S1x640000_S640000,
    nullary main_c_1 (constantI S_ 32 0#32),
    unary main_c_1 main_v27 (broadcastInDim S640000 ![] bcast_S_S640000 : (⟨S_, .i32⟩ : BufTy).Contents (Elt F) → (⟨S640000, .i32⟩ : BufTy).Contents (Elt F)),
    binary main_v24 main_v27 main_v28 (cmpi .slt : (⟨S640000, .i32⟩ : BufTy).Contents (Elt F) → (⟨S640000, .i32⟩ : BufTy).Contents (Elt F) → (⟨S640000, .i1⟩ : BufTy).Contents (Elt F)),
    nullary main_c_2 (constantI S_ 32 100000#32),
    unary main_c_2 main_v29 (broadcastInDim S640000 ![] bcast_S_S640000 : (⟨S_, .i32⟩ : BufTy).Contents (Elt F) → (⟨S640000, .i32⟩ : BufTy).Contents (Elt F)),
    binary main_v24 main_v29 main_v30 (addi : (⟨S640000, .i32⟩ : BufTy).Contents (Elt F) → (⟨S640000, .i32⟩ : BufTy).Contents (Elt F) → (⟨S640000, .i32⟩ : BufTy).Contents (Elt F)),
    ternary main_v28 main_v30 main_v24 main_v31 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v31 main_v32 (broadcastInDim S640000x1 ![0] bcast_S640000_S640000x1_0 : (⟨S640000, .i32⟩ : BufTy).Contents (Elt F) → (⟨S640000x1, .i32⟩ : BufTy).Contents (Elt F)),
    binary main_v22 main_v32 main_v33 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    nullary main_cst_3 (constant S_ .f32 0x00000000#32),
    unary main_cst_3 main_v34 (broadcastInDim S100000x64 ![] bcast_S_S100000x64 : (⟨S_, .f32⟩ : BufTy).Contents (Elt F) → (⟨S100000x64, .f32⟩ : BufTy).Contents (Elt F)),
    unary main_v26 main_v35 (broadcastInDim S640000x1 ![0] bcast_S640000_S640000x1_0 : (⟨S640000, .i32⟩ : BufTy).Contents (Elt F) → (⟨S640000x1, .i32⟩ : BufTy).Contents (Elt F)),
    ternary main_v34 main_v35 main_v33 main_v36 ((fun x i u => Host.scatterAdd scatter_S100000x64_S640000x1_S640000x64_1_0_0_1 x i u) : (⟨S100000x64, .f32⟩ : BufTy).Contents (Elt F) → (⟨S640000x1, .i32⟩ : BufTy).Contents (Elt F) → (⟨S640000x64, .f32⟩ : BufTy).Contents (Elt F) → (⟨S100000x64, .f32⟩ : BufTy).Contents (Elt F)),
    unary main_arg6 main_v37 ((transpose S64x16 [1, 0] · transposes_S16x64_S64x16_1_0) : (⟨S16x64, .f32⟩ : BufTy).Contents (Elt F) → (⟨S64x16, .f32⟩ : BufTy).Contents (Elt F)),
    binary main_v22 main_v37 main_v38 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg5 main_v39 ((transpose S64x16 [1, 0] · transposes_S16x64_S64x16_1_0) : (⟨S16x64, .f32⟩ : BufTy).Contents (Elt F) → (⟨S64x16, .f32⟩ : BufTy).Contents (Elt F)),
    binary main_v36 main_v39 main_v40 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v38 main_v40 main_v41 (addf : (⟨S100000x16, .f32⟩ : BufTy).Contents (Elt F) → (⟨S100000x16, .f32⟩ : BufTy).Contents (Elt F) → (⟨S100000x16, .f32⟩ : BufTy).Contents (Elt F)),
    unary main_arg7 main_v42 (broadcastInDim S1x16 ![1] bcast_S16_S1x16_1 : (⟨S16, .f32⟩ : BufTy).Contents (Elt F) → (⟨S1x16, .f32⟩ : BufTy).Contents (Elt F)),
    unary main_v42 main_v43 (broadcastInDim S100000x16 ![0, 1] bcast_S1x16_S100000x16_0_1 : (⟨S1x16, .f32⟩ : BufTy).Contents (Elt F) → (⟨S100000x16, .f32⟩ : BufTy).Contents (Elt F)),
    binary main_v41 main_v43 main_v44 (addf : (⟨S100000x16, .f32⟩ : BufTy).Contents (Elt F) → (⟨S100000x16, .f32⟩ : BufTy).Contents (Elt F) → (⟨S100000x16, .f32⟩ : BufTy).Contents (Elt F)) ]

/-- The log-softmax: operations 54 to 68. -/
abbrev opsC : List (HloOp τ sig (Elt F)) :=
  [ TRef.nullary (TRef.of (T := ⟨S_, .f32⟩) main_call1_cst) (constant S_ .f32 0xFF800000#32),
    TRef.binary (TRef.of (T := ⟨S100000x16, .f32⟩) main_v44) (TRef.of (T := ⟨S_, .f32⟩) main_call1_cst) (TRef.of (T := ⟨S100000, .f32⟩) main_call1_v0) (fun x v => Host.reduce FloatOps.maximumf x v reducesTo_S100000x16_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x16, .f32⟩) main_call1_v4) (broadcastInDim S100000x16 ![0, 1] bcast_S100000x1_S100000x16_0_1),
    TRef.binary (TRef.of (T := ⟨S100000x16, .f32⟩) main_v44) (TRef.of (T := ⟨S100000x16, .f32⟩) main_call1_v4) (TRef.of (T := ⟨S100000x16, .f32⟩) main_call1_v5) subf,
    TRef.unary (TRef.of (T := ⟨S100000x16, .f32⟩) main_call1_v5) (TRef.of (T := ⟨S100000x16, .f32⟩) main_call1_v6) Host.exp,
    TRef.nullary (TRef.of (T := ⟨S_, .f32⟩) main_call1_cst_1) (constant S_ .f32 0x00000000#32),
    TRef.binary (TRef.of (T := ⟨S100000x16, .f32⟩) main_call1_v6) (TRef.of (T := ⟨S_, .f32⟩) main_call1_cst_1) (TRef.of (T := ⟨S100000, .f32⟩) main_call1_v7) (fun x v => Host.reduceAdd x v reducesTo_S100000x16_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x16, .f32⟩) main_call1_v10) (broadcastInDim S100000x16 ![0, 1] bcast_S100000x1_S100000x16_0_1),
    TRef.binary (TRef.of (T := ⟨S100000x16, .f32⟩) main_call1_v5) (TRef.of (T := ⟨S100000x16, .f32⟩) main_call1_v10) (TRef.of (T := ⟨S100000x16, .f32⟩) main_v45) subf ]

theorem ops_split : (ops : List (HloOp τ sig (Elt F))) = opsA ++ (opsB ++ opsC) := rfl

/-- Row 0 of the edge array as a vector: the edges' source indices as given. -/
def srcRaw (a1 : (⟨S2x640000, .i32⟩ : BufTy).Contents (Elt F)) : (⟨S640000, .i32⟩ : BufTy).Contents (Elt F) :=
  shapeCast S640000 (extractStridedSlice S1x640000 ![0, 0] a1 slices_S2x640000_S1x640000_0_0) shapeCasts_S1x640000_S640000

/-- Row 1 of the edge array as a vector: the edges' destination indices. -/
def dstRaw (a1 : (⟨S2x640000, .i32⟩ : BufTy).Contents (Elt F)) : (⟨S640000, .i32⟩ : BufTy).Contents (Elt F) :=
  shapeCast S640000 (extractStridedSlice S1x640000 ![1, 0] a1 slices_S2x640000_S1x640000_1_0) shapeCasts_S1x640000_S640000

/-- The source indices with a negative one wrapped once, as a column. -/
def srcCol (v : (⟨S640000, .i32⟩ : BufTy).Contents (Elt F)) : (⟨S640000x1, .i32⟩ : BufTy).Contents (Elt F) :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 100000#32))) v)

/-- The destination indices as a column. -/
def dstCol (v : (⟨S640000, .i32⟩ : BufTy).Contents (Elt F)) : (⟨S640000x1, .i32⟩ : BufTy).Contents (Elt F) :=
  broadcastInDim S640000x1 ![0] bcast_S640000_S640000x1_0 v

/-- The first layer with its positive part, as the operations compose. -/
def layer1 (x : (⟨S100000x128, .f32⟩ : BufTy).Contents (Elt F)) (a1 : (⟨S2x640000, .i32⟩ : BufTy).Contents (Elt F))
    (w2 w3 : (⟨S64x128, .f32⟩ : BufTy).Contents (Elt F)) (b4 : (⟨S64, .f32⟩ : BufTy).Contents (Elt F)) :
    (⟨S100000x64, .f32⟩ : BufTy).Contents (Elt F) :=
  maximumf
    (addf
      (addf
        (Host.dotGeneral dot_S100000x128_S128x64_S100000x64_1_0_0_1_n_n none x (transpose S128x64 [1, 0] w3 transposes_S64x128_S128x64_1_0))
        (Host.dotGeneral dot_S100000x128_S128x64_S100000x64_1_0_0_1_n_n none
          (Host.scatterAdd scatter_S100000x128_S640000x1_S640000x128_1_0_0_1
            (broadcastInDim S100000x128 ![] bcast_S_S100000x128 (constant S_ .f32 0x00000000#32))
            (dstCol (dstRaw a1))
            (Host.gather gather_S100000x128_S640000x1_S640000x128_1_0_n_n_0_1_1128 x (srcCol (srcRaw a1))))
          (transpose S128x64 [1, 0] w2 transposes_S64x128_S128x64_1_0)))
      (broadcastInDim S100000x64 ![0, 1] bcast_S1x64_S100000x64_0_1 (broadcastInDim S1x64 ![1] bcast_S64_S1x64_1 b4)))
    (broadcastInDim S100000x64 ![] bcast_S_S100000x64 (constant S_ .f32 0x00000000#32))

/-- The second layer, as the operations compose. -/
def layer2 (h : (⟨S100000x64, .f32⟩ : BufTy).Contents (Elt F)) (a1 : (⟨S2x640000, .i32⟩ : BufTy).Contents (Elt F))
    (w5 w6 : (⟨S16x64, .f32⟩ : BufTy).Contents (Elt F)) (b7 : (⟨S16, .f32⟩ : BufTy).Contents (Elt F)) :
    (⟨S100000x16, .f32⟩ : BufTy).Contents (Elt F) :=
  addf
    (addf
      (Host.dotGeneral dot_S100000x64_S64x16_S100000x16_1_0_0_1_n_n none h (transpose S64x16 [1, 0] w6 transposes_S16x64_S64x16_1_0))
      (Host.dotGeneral dot_S100000x64_S64x16_S100000x16_1_0_0_1_n_n none
        (Host.scatterAdd scatter_S100000x64_S640000x1_S640000x64_1_0_0_1
          (broadcastInDim S100000x64 ![] bcast_S_S100000x64 (constant S_ .f32 0x00000000#32))
          (dstCol (dstRaw a1))
          (Host.gather gather_S100000x64_S640000x1_S640000x64_1_0_n_n_0_1_164 h (srcCol (srcRaw a1))))
        (transpose S64x16 [1, 0] w5 transposes_S16x64_S64x16_1_0)))
    (broadcastInDim S100000x16 ![0, 1] bcast_S1x16_S100000x16_0_1 (broadcastInDim S1x16 ![1] bcast_S16_S1x16_1 b7))

/-- Each row less its maximum, as the operations compose. -/
def shifted (y : (⟨S100000x16, .f32⟩ : BufTy).Contents (Elt F)) : (⟨S100000x16, .f32⟩ : BufTy).Contents (Elt F) :=
  subf y (broadcastInDim S100000x16 ![0, 1] bcast_S100000x1_S100000x16_0_1 (broadcastInDim S100000x1 ![0] bcast_S100000_S100000x1_0
    (maximumf (broadcastInDim S100000 ![] bcast_S_S100000 (constant S_ .f32 0xFF800000#32))
      (Host.reduce FloatOps.maximumf y (constant S_ .f32 0xFF800000#32) reducesTo_S100000x16_S100000_d1 h_S_))))

/-- The log-softmax, as the operations compose. -/
def logsm (y : (⟨S100000x16, .f32⟩ : BufTy).Contents (Elt F)) : (⟨S100000x16, .f32⟩ : BufTy).Contents (Elt F) :=
  subf (shifted y) (broadcastInDim S100000x16 ![0, 1] bcast_S100000x1_S100000x16_0_1 (Host.log
    (broadcastInDim S100000x1 ![0] bcast_S100000_S100000x1_0
      (Host.reduceAdd (Host.exp (shifted y)) (constant S_ .f32 0x00000000#32) reducesTo_S100000x16_S100000_d1 h_S_))))

variable (W : Valuation τ sig (Elt F))

/-- A typed reference's two transports, one after the other, are the identity. -/
theorem ofBuf_toBuf {T : BufTy} (x : TRef sig T) (v : T.Contents (Elt F)) : x.ofBuf (x.toBuf v) = v := by
  obtain ⟨r, h, a, b⟩ := x
  subst h
  rfl

theorem ofBuf21 (v : (main_v21 : Ref sig .tc).ty.Contents (Elt F)) : (TRef.of (T := ⟨S100000x64, .f32⟩) main_v21).ofBuf v = v := rfl
theorem toBuf22 (v : (⟨S100000x64, .f32⟩ : BufTy).Contents (Elt F)) : (TRef.of (T := ⟨S100000x64, .f32⟩) main_v22).toBuf v = v := rfl
theorem ofBuf44 (v : (main_v44 : Ref sig .tc).ty.Contents (Elt F)) : (TRef.of (T := ⟨S100000x16, .f32⟩) main_v44).ofBuf v = v := rfl
theorem toBuf45 (v : (⟨S100000x16, .f32⟩ : BufTy).Contents (Elt F)) : (TRef.of (T := ⟨S100000x16, .f32⟩) main_v45).toBuf v = v := rfl

set_option maxHeartbeats 1000000 in
theorem segA : after opsA W (Proc.devRef .tc main_v22)
    = layer1 (W (Proc.devRef .tc main_arg0)) (W (Proc.devRef .tc main_arg1)) (W (Proc.devRef .tc main_arg2))
        (W (Proc.devRef .tc main_arg3)) (W (Proc.devRef .tc main_arg4)) := by
  after_results_simp
  simp only [ofBuf_toBuf, ofBuf21, toBuf22]
  rfl
set_option maxHeartbeats 1000000 in
theorem segA_arg1 : after opsA W (Proc.devRef .tc main_arg1) = W (Proc.devRef .tc main_arg1) := by after_results_simp
set_option maxHeartbeats 1000000 in
theorem segA_arg5 : after opsA W (Proc.devRef .tc main_arg5) = W (Proc.devRef .tc main_arg5) := by after_results_simp
set_option maxHeartbeats 1000000 in
theorem segA_arg6 : after opsA W (Proc.devRef .tc main_arg6) = W (Proc.devRef .tc main_arg6) := by after_results_simp
set_option maxHeartbeats 1000000 in
theorem segA_arg7 : after opsA W (Proc.devRef .tc main_arg7) = W (Proc.devRef .tc main_arg7) := by after_results_simp

set_option maxHeartbeats 1000000 in
theorem segB : after opsB W (Proc.devRef .tc main_v44)
    = layer2 (W (Proc.devRef .tc main_v22)) (W (Proc.devRef .tc main_arg1)) (W (Proc.devRef .tc main_arg5))
        (W (Proc.devRef .tc main_arg6)) (W (Proc.devRef .tc main_arg7)) := by
  after_results_simp
  rfl

set_option maxHeartbeats 1000000 in
theorem segC : after opsC W (Proc.devRef .tc main_v45) = logsm (W (Proc.devRef .tc main_v44)) := by
  after_results_simp
  simp only [ofBuf_toBuf, ofBuf44, toBuf45]
  rfl

/-- THE RESULT BUFFER after the run, as the three stretches compose. -/
theorem result_eq (m : (ℓ : Loc nD τ sig) → Buf (Elt F) ℓ) (c : Dev nD) :
    after ops (launchContents m c) (Proc.devRef .tc main_v45)
      = logsm (layer2 (layer1 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          (m ((c.tc : Thread nD τ).loc main_arg1)) (m ((c.tc : Thread nD τ).loc main_arg5))
          (m ((c.tc : Thread nD τ).loc main_arg6)) (m ((c.tc : Thread nD τ).loc main_arg7))) := by
  rw [ops_split, StableHlo.after_append, StableHlo.after_append, segC, segB, segA, segA_arg1, segA_arg5, segA_arg6, segA_arg7]

/-! ## The arguments end as launched: no operation writes one -/

set_option maxHeartbeats 2000000 in
theorem kept_arg0 (m : (ℓ : Loc nD τ sig) → Buf (Elt F) ℓ) (c : Dev nD) :
    after ops (launchContents m c) (Proc.devRef .tc main_arg0) = m ((c.tc : Thread nD τ).loc main_arg0) := by
  after_results_simp <;> rfl
set_option maxHeartbeats 2000000 in
theorem kept_arg1 (m : (ℓ : Loc nD τ sig) → Buf (Elt F) ℓ) (c : Dev nD) :
    after ops (launchContents m c) (Proc.devRef .tc main_arg1) = m ((c.tc : Thread nD τ).loc main_arg1) := by
  after_results_simp <;> rfl
set_option maxHeartbeats 2000000 in
theorem kept_arg2 (m : (ℓ : Loc nD τ sig) → Buf (Elt F) ℓ) (c : Dev nD) :
    after ops (launchContents m c) (Proc.devRef .tc main_arg2) = m ((c.tc : Thread nD τ).loc main_arg2) := by
  after_results_simp <;> rfl
set_option maxHeartbeats 2000000 in
theorem kept_arg3 (m : (ℓ : Loc nD τ sig) → Buf (Elt F) ℓ) (c : Dev nD) :
    after ops (launchContents m c) (Proc.devRef .tc main_arg3) = m ((c.tc : Thread nD τ).loc main_arg3) := by
  after_results_simp <;> rfl
set_option maxHeartbeats 2000000 in
theorem kept_arg4 (m : (ℓ : Loc nD τ sig) → Buf (Elt F) ℓ) (c : Dev nD) :
    after ops (launchContents m c) (Proc.devRef .tc main_arg4) = m ((c.tc : Thread nD τ).loc main_arg4) := by
  after_results_simp <;> rfl
set_option maxHeartbeats 2000000 in
theorem kept_arg5 (m : (ℓ : Loc nD τ sig) → Buf (Elt F) ℓ) (c : Dev nD) :
    after ops (launchContents m c) (Proc.devRef .tc main_arg5) = m ((c.tc : Thread nD τ).loc main_arg5) := by
  after_results_simp <;> rfl
set_option maxHeartbeats 2000000 in
theorem kept_arg6 (m : (ℓ : Loc nD τ sig) → Buf (Elt F) ℓ) (c : Dev nD) :
    after ops (launchContents m c) (Proc.devRef .tc main_arg6) = m ((c.tc : Thread nD τ).loc main_arg6) := by
  after_results_simp <;> rfl
set_option maxHeartbeats 2000000 in
theorem kept_arg7 (m : (ℓ : Loc nD τ sig) → Buf (Elt F) ℓ) (c : Dev nD) :
    after ops (launchContents m c) (Proc.devRef .tc main_arg7) = m ((c.tc : Thread nD τ).loc main_arg7) := by
  after_results_simp <;> rfl

end Cert.ReferenceIdeal.RefRead

end
-- ==== Proof.KernelSpec.lean ====
/-
  The program's result as the mathematics names it: the row-wise log-softmax of a second layer of a first layer's
  positive part, each layer multiplying by its `w_rel` BEFORE it sums over the edges.
-/
import proofs.«176011_j850403525401_2_alg».proof.Proof.KernelValue
import proofs.«176011_j850403525401_2_alg».proof.Proof.Glue

noncomputable section

namespace Cert.KernelIdeal.KernelSpec

open Cert.KernelIdeal Cert.KernelIdeal.Gen Cert.KernelIdeal.HostRead Cert.KernelIdeal.KernelValue Cert.GraphConv
open Idealize.ShloMosaic

theorem hN : 0 < 100000 := by decide

/-- The source-index column and the destination-index column of the edge array. -/
abbrev si (a1 : (⟨S2x640000, .i32⟩ : BufTy).Contents (Elt Ideal)) : Col 640000 := srcCol (F := Ideal) (srcRaw a1)
abbrev di (a1 : (⟨S2x640000, .i32⟩ : BufTy).Contents (Elt Ideal)) : Col 640000 := dstCol (F := Ideal) (dstRaw a1)

/-- The first layer: products first, then the sum over the edges, then the positive part. -/
theorem hidden_eq (x : (⟨S100000x128, .f32⟩ : BufTy).Contents (Elt Ideal)) (a1 : (⟨S2x640000, .i32⟩ : BufTy).Contents (Elt Ideal))
    (w2 w3 : (⟨S64x128, .f32⟩ : BufTy).Contents (Elt Ideal)) (b4 : (⟨S64, .f32⟩ : BufTy).Contents (Elt Ideal)) :
    hidden x a1 w2 w3 b4 = relu (of2 (layerKE hN (si a1) (di a1) x w2 w3 b4)) := by
  unfold Cert.KernelIdeal.KernelValue.hidden
  exact congrArg relu (pre_layerK hN gather_S100000x64_S640000x1_S640000x64_1_0_n_n_0_1_164_wf scatter_S100000x64_S640000x1_S640000x64_1_0_0_1_wf
    _ rfl _ rfl _ (fun i => zeros_apply _ i) transposes_S64x128_S128x64_1_0 shapeCasts_S64_S1x64 x w2 w3 b4 (si a1) (di a1))

/-- The second layer before its log-softmax: products first, then the sum over the edges. -/
theorem logits_eq (h : (⟨S100000x64, .f32⟩ : BufTy).Contents (Elt Ideal)) (a1 : (⟨S2x640000, .i32⟩ : BufTy).Contents (Elt Ideal))
    (w5 w6 : (⟨S16x64, .f32⟩ : BufTy).Contents (Elt Ideal)) (b7 : (⟨S16, .f32⟩ : BufTy).Contents (Elt Ideal)) :
    logits h a1 w5 w6 b7 = of2 (layerKE hN (si a1) (di a1) h w5 w6 b7) := by
  unfold Cert.KernelIdeal.KernelValue.logits
  exact pre_layerK hN gather_S100000x16_S640000x1_S640000x16_1_0_n_n_0_1_116_wf scatter_S100000x16_S640000x1_S640000x16_1_0_0_1_wf
    _ rfl _ rfl _ (fun i => zeros_apply _ i) transposes_S16x64_S64x16_1_0 shapeCasts_S16_S1x16 h w5 w6 b7 (si a1) (di a1)

end Cert.KernelIdeal.KernelSpec

end
-- ==== Proof.RefSpec.lean ====
/-
  The reference's result as the mathematics names it: the row-wise log-softmax of a second layer of a first layer's
  positive part, each layer summing over the edges BEFORE it multiplies by its `w_rel`.
-/
import proofs.«176011_j850403525401_2_alg».proof.Proof.RefRead
import proofs.«176011_j850403525401_2_alg».proof.Proof.Glue

noncomputable section

namespace Cert.ReferenceIdeal.RefSpec

open Cert.ReferenceIdeal Cert.ReferenceIdeal.Gen Cert.ReferenceIdeal.RefRead Cert.GraphConv
open Idealize.ShloMosaic

theorem hN : 0 < 100000 := by decide

/-- The source-index column and the destination-index column of the edge array. -/
abbrev si (a1 : (⟨S2x640000, .i32⟩ : BufTy).Contents (Elt Ideal)) : Col 640000 := srcCol (F := Ideal) (srcRaw a1)
abbrev di (a1 : (⟨S2x640000, .i32⟩ : BufTy).Contents (Elt Ideal)) : Col 640000 := dstCol (F := Ideal) (dstRaw a1)

/-- The first layer: the sum over the edges first, then the products, then the positive part. -/
theorem layer1_eq (x : (⟨S100000x128, .f32⟩ : BufTy).Contents (Elt Ideal)) (a1 : (⟨S2x640000, .i32⟩ : BufTy).Contents (Elt Ideal))
    (w2 w3 : (⟨S64x128, .f32⟩ : BufTy).Contents (Elt Ideal)) (b4 : (⟨S64, .f32⟩ : BufTy).Contents (Elt Ideal)) :
    layer1 (F := Ideal) x a1 w2 w3 b4 = relu (of2 (layerRE hN (si a1) (di a1) x w2 w3 b4)) := by
  unfold layer1
  exact (congrArg (fun y => maximumf (F := Ideal) (φ := .f32) y
      (broadcastInDim S100000x64 ![] bcast_S_S100000x64 (constant (F := Ideal) S_ .f32 0x00000000#32)))
    (host_layerR hN gather_S100000x128_S640000x1_S640000x128_1_0_n_n_0_1_1128_wf scatter_S100000x128_S640000x1_S640000x128_1_0_0_1_wf
      _ rfl _ rfl _ (fun i => zeros_apply _ i) dot_S100000x128_S128x64_S100000x64_1_0_0_1_n_n rfl rfl rfl rfl rfl rfl
      transposes_S64x128_S128x64_1_0 bcast_S64_S1x64_1 bcast_S1x64_S100000x64_0_1 x w2 w3 b4 (si a1) (di a1))).trans
    (host_relu bcast_S_S100000x64 _)

/-- The second layer before its log-softmax: the sum over the edges first, then the products. -/
theorem layer2_eq (h : (⟨S100000x64, .f32⟩ : BufTy).Contents (Elt Ideal)) (a1 : (⟨S2x640000, .i32⟩ : BufTy).Contents (Elt Ideal))
    (w5 w6 : (⟨S16x64, .f32⟩ : BufTy).Contents (Elt Ideal)) (b7 : (⟨S16, .f32⟩ : BufTy).Contents (Elt Ideal)) :
    layer2 (F := Ideal) h a1 w5 w6 b7 = of2 (layerRE hN (si a1) (di a1) h w5 w6 b7) := by
  unfold layer2
  exact host_layerR hN gather_S100000x64_S640000x1_S640000x64_1_0_n_n_0_1_164_wf scatter_S100000x64_S640000x1_S640000x64_1_0_0_1_wf
    _ rfl _ rfl _ (fun i => zeros_apply _ i) dot_S100000x64_S64x16_S100000x16_1_0_0_1_n_n rfl rfl rfl rfl rfl rfl
    transposes_S16x64_S64x16_1_0 bcast_S16_S1x16_1 bcast_S1x16_S100000x16_0_1 h w5 w6 b7 (si a1) (di a1)

/-- The log-softmax. -/
theorem logsm_eq (y : (⟨S100000x16, .f32⟩ : BufTy).Contents (Elt Ideal)) : logsm (F := Ideal) y = of2 (lsmE y) :=
  lsmHost_eq reducesTo_S100000x16_S100000_d1 h_S_ bcast_S_S100000 bcast_S100000_S100000x1_0 bcast_S100000x1_S100000x16_0_1
    (by decide) y

end Cert.ReferenceIdeal.RefSpec

end
-- ==== Proof.Finite.lean ====
/-
  What the precondition says, entry by entry: every float argument array holds real numbers.

  The precondition is the conjunction, over the seven float arguments, of "every entry's absolute value is below
  plus infinity". An extended real with that property is neither infinity, so it is a real number; an array all of
  whose entries are reals is an array of reals.
-/
import proofs.«176011_j850403525401_2_alg».proof.Pre_finite_inputs
import proofs.«176011_j850403525401_2_alg».proof.Proof.Glue
import Idealize.ShloMosaic.Lib.ReduceAll
import Idealize.ShloMosaic.Lib.Affine

noncomputable section

namespace Cert.Finite

open Idealize.ShloMosaic Idealize.ShloMosaic.ValueIdx Cert.Pre_finite_inputs Cert.GraphConv Cert.IdealReal

instance : Subsingleton (⟨0, ![]⟩ : Shape).Idx := ⟨fun a b => funext fun d => d.elim0⟩

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A splat read anywhere is the value of its pattern. -/
theorem splat_apply {s : Shape} (w : BitVec 32) (h : (⟨0, ![]⟩ : Shape).BroadcastsInDim s ![]) (i : s.Idx) :
    broadcastInDim s ![] h (constant (F := Ideal) ⟨0, ![]⟩ .f32 w) i = Ideal.ofBits .f32 w := by
  rw [broadcastInDim_apply ![] h (constant (F := Ideal) ⟨0, ![]⟩ .f32 w) i (fun a => a.elim0) (fun a => a.elim0)]
  rfl

/-- "All entries have absolute value below plus infinity", as the precondition states it of one array, gives a real at every entry. -/
theorem reals_of_all {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (h : Host.reduce IntOp.andi (cmpf .olt (Host.absf a) (broadcastInDim s ![] hb (constant (F := Ideal) ⟨0, ![]⟩ .f32 0x7F800000#32)))
          (constantI ⟨0, ![]⟩ 1 1#1) hr hu ix0 = 1#1) (i : s.Idx) : ∃ r : ℝ, a i = (r : EReal) := by
  have hi := Host.reduce_andi_all _ _ hr hu ix0 h i
  refine real_of_abs_lt (a i) ?_
  have e : broadcastInDim s ![] hb (constant (F := Ideal) ⟨0, ![]⟩ .f32 0x7F800000#32) i = Ideal.ofBits .f32 0x7F800000#32 :=
    splat_apply _ hb i
  rw [← e]
  exact hi

/-- An array of rank two all of whose entries are reals is an array of reals. -/
theorem lift2_of_reals {n0 n1 : Nat} (a : Mat n0 n1) (h : ∀ i, ∃ r : ℝ, a i = (r : EReal)) :
    ∃ X : Fin n0 → Fin n1 → ℝ, a = lift2 X := by
  choose f hf using h
  exact ⟨fun r c => f (ix2 r c), eq_lift2 _ _ fun r c => hf _⟩

/-- A vector all of whose entries are reals is a vector of reals. -/
theorem lift1_of_reals {n : Nat} (a : Vc n) (h : ∀ i, ∃ r : ℝ, a i = (r : EReal)) :
    ∃ B : Fin n → ℝ, a = lift1 B := by
  choose f hf using h
  exact ⟨fun c => f (ix1 c), eq_lift1 _ _ fun c => hf _⟩

variable [Facts]

/-- THE PRECONDITION READ: the features, the first layer's two weight matrices and bias, and the second layer's
    `w_rel` are arrays of reals. -/
theorem reals_of_pre (x : FVec Ideal S100000x128 .f32) (a1 : IVec S2x640000 32) (w2 w3 : FVec Ideal S64x128 .f32)
    (b4 : FVec Ideal S64 .f32) (w5 w6 : FVec Ideal S16x64 .f32) (b7 : FVec Ideal S16 .f32)
    (h : fn (F := Ideal) x a1 w2 w3 b4 w5 w6 b7 = fun _ => 1#1) :
    (∃ X : Fin 100000 → Fin 128 → ℝ, x = lift2 X) ∧ (∃ W : Fin 64 → Fin 128 → ℝ, w2 = lift2 W)
      ∧ (∃ W : Fin 64 → Fin 128 → ℝ, w3 = lift2 W) ∧ (∃ B : Fin 64 → ℝ, b4 = lift1 B)
      ∧ (∃ W : Fin 16 → Fin 64 → ℝ, w5 = lift2 W) := by
  have h0 := congrFun h ix0
  dsimp only [fn, fn_part1] at h0
  simp only [show ∀ (a b : IVec S_ 1), andi a b ix0 = IntOp.andi (a ix0) (b ix0) from fun _ _ => rfl, IntOp.andi_eq_one] at h0
  obtain ⟨⟨⟨⟨⟨⟨h3, h7⟩, h12⟩, h17⟩, h22⟩, -⟩, -⟩ := h0
  exact ⟨lift2_of_reals x (reals_of_all x _ _ _ h3), lift2_of_reals w2 (reals_of_all w2 _ _ _ h7),
    lift2_of_reals w3 (reals_of_all w3 _ _ _ h12), lift1_of_reals b4 (reals_of_all b4 _ _ _ h17),
    lift2_of_reals w5 (reals_of_all w5 _ _ _ h22)⟩

end Cert.Finite

end
-- ==== Proof.Bridge.lean ====
/-
  The two programs' results are one function of the argument arrays.

  Both results are the row-wise log-softmax of a second layer applied to the positive part of a first layer, over the
  same two index columns of the edge array. The programs differ in each layer only in whether the product with
  `w_relᵀ` is taken before or after the sum over the edges; under the precondition every float argument is an array
  of reals, the first layer's result is then an array of reals too, and on reals the two orders agree.
-/
import proofs.«176011_j850403525401_2_alg».proof.Proof.KernelSpec
import proofs.«176011_j850403525401_2_alg».proof.Proof.RefSpec
import proofs.«176011_j850403525401_2_alg».proof.Proof.Finite

noncomputable section

namespace Cert.Bridge

open Cert.GraphConv Cert.IdealReal Idealize.ShloMosaic

/-- The two programs read the same two index columns off the edge array. -/
theorem si_eq (a1 : IVec ⟨2, ![2, 640000]⟩ 32) : Cert.ReferenceIdeal.RefSpec.si a1 = Cert.KernelIdeal.KernelSpec.si a1 := rfl
theorem di_eq (a1 : IVec ⟨2, ![2, 640000]⟩ 32) : Cert.ReferenceIdeal.RefSpec.di a1 = Cert.KernelIdeal.KernelSpec.di a1 := rfl

/-- THE COMMON RESULT: log-softmax of layer two of the positive part of layer one, the layers in "sum first" form. -/
def G (x : Mat 100000 128) (a1 : IVec ⟨2, ![2, 640000]⟩ 32) (w2 w3 : Mat 64 128) (b4 : Vc 64) (w5 w6 : Mat 16 64) (b7 : Vc 16) :
    Mat 100000 16 :=
  of2 (lsmE (of2 (layerRE Cert.KernelIdeal.KernelSpec.hN (Cert.KernelIdeal.KernelSpec.si a1) (Cert.KernelIdeal.KernelSpec.di a1)
    (relu (of2 (layerRE Cert.KernelIdeal.KernelSpec.hN (Cert.KernelIdeal.KernelSpec.si a1) (Cert.KernelIdeal.KernelSpec.di a1) x w2 w3 b4)))
    w5 w6 b7)))

/-- The reference's result is `G`, for any arguments. -/
theorem ref_eq (x : Mat 100000 128) (a1 : IVec ⟨2, ![2, 640000]⟩ 32) (w2 w3 : Mat 64 128) (b4 : Vc 64) (w5 w6 : Mat 16 64) (b7 : Vc 16) :
    Cert.ReferenceIdeal.RefRead.logsm (F := Ideal)
        (Cert.ReferenceIdeal.RefRead.layer2 (Cert.ReferenceIdeal.RefRead.layer1 x a1 w2 w3 b4) a1 w5 w6 b7)
      = G x a1 w2 w3 b4 w5 w6 b7 := by
  rw [Cert.ReferenceIdeal.RefSpec.logsm_eq, Cert.ReferenceIdeal.RefSpec.layer2_eq, Cert.ReferenceIdeal.RefSpec.layer1_eq, si_eq, di_eq]
  rfl

/-- The program's result is `G` when the float arguments are finite. -/
theorem kernel_eq [Cert.Pre_finite_inputs.Facts] (x : Mat 100000 128) (a1 : IVec ⟨2, ![2, 640000]⟩ 32) (w2 w3 : Mat 64 128) (b4 : Vc 64)
    (w5 w6 : Mat 16 64) (b7 : Vc 16)
    (hpre : Cert.Pre_finite_inputs.fn (F := Ideal) x a1 w2 w3 b4 w5 w6 b7 = fun _ => 1#1) :
    of2 (lsmE (Cert.KernelIdeal.KernelValue.logits (Cert.KernelIdeal.KernelValue.hidden x a1 w2 w3 b4) a1 w5 w6 b7))
      = G x a1 w2 w3 b4 w5 w6 b7 := by
  obtain ⟨⟨X, rfl⟩, ⟨W2, rfl⟩, ⟨W3, rfl⟩, ⟨B4, rfl⟩, ⟨W5, rfl⟩⟩ := Cert.Finite.reals_of_pre x a1 w2 w3 b4 w5 w6 b7 hpre
  rw [Cert.KernelIdeal.KernelSpec.hidden_eq, Cert.KernelIdeal.KernelSpec.logits_eq]
  unfold G
  rw [two_layers]

end Cert.Bridge

end
-- ==== Proof.lean ====
/- The proof of `Cert.Claim`: the three programs run and leave their arguments unchanged, the idealized kernel is the
   kernel's own text read over the extended reals, and the idealized kernel and the idealized reference end with equal results.

   The kernel computes a two-layer graph convolution with a log-softmax in four launches among host operations; its
   frames are the generated ones. The result buffer's contents at the return are followed through the eight segments
   of the program (the launches as whole-array functions, the host stretches operation by operation), the reference's
   from its line of host operations, and the two are one function of the arguments: each layer of the kernel multiplies
   the features by `w_relᵀ` before it sums the neighbours' rows, each layer of the reference after, and for finite
   arguments the two orders agree. -/
import proofs.«176011_j850403525401_2_alg».proof.Defs
import proofs.«176011_j850403525401_2_alg».proof.Proof.Gen.Kernel
import proofs.«176011_j850403525401_2_alg».proof.Proof.Gen.Kernel.Frame
import proofs.«176011_j850403525401_2_alg».proof.Proof.Gen.KernelIdeal
import proofs.«176011_j850403525401_2_alg».proof.Proof.Gen.KernelIdeal.Frame
import proofs.«176011_j850403525401_2_alg».proof.Proof.Gen.ReferenceIdeal
import proofs.«176011_j850403525401_2_alg».proof.Proof.Gen.Pre_finite_inputs
import proofs.«176011_j850403525401_2_alg».proof.Proof.RunNamed
import proofs.«176011_j850403525401_2_alg».proof.Proof.KernelValue
import proofs.«176011_j850403525401_2_alg».proof.Proof.RefRunP
import proofs.«176011_j850403525401_2_alg».proof.Proof.RefRead
import proofs.«176011_j850403525401_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its line of host operations writes none of them. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c _).trans (Cert.ReferenceIdeal.RefRead.kept_arg0 m c), (h c _).trans (Cert.ReferenceIdeal.RefRead.kept_arg1 m c),
     (h c _).trans (Cert.ReferenceIdeal.RefRead.kept_arg2 m c), (h c _).trans (Cert.ReferenceIdeal.RefRead.kept_arg3 m c),
     (h c _).trans (Cert.ReferenceIdeal.RefRead.kept_arg4 m c), (h c _).trans (Cert.ReferenceIdeal.RefRead.kept_arg5 m c),
     (h c _).trans (Cert.ReferenceIdeal.RefRead.kept_arg6 m c), (h c _).trans (Cert.ReferenceIdeal.RefRead.kept_arg7 m c)⟩)
    (Cert.ReferenceIdeal.ValueP.run (F := Ideal) m ρ)

/-- Both idealized programs end at the common result `G` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Bridge.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunNamed.run_main (F := Ideal) m ρ)
    exact (Cert.KernelIdeal.KernelValue.result_eq m ρ c).trans (Cert.Bridge.kernel_eq _ _ _ _ _ _ _ _ (hpre c))
  · refine (θ_run Cert.ReferenceIdeal.defs _ _).mono (fun r h c =>
      ⟨(h c _).trans ?_,
       (h c _).trans (Cert.ReferenceIdeal.RefRead.kept_arg0 m' c), (h c _).trans (Cert.ReferenceIdeal.RefRead.kept_arg1 m' c),
       (h c _).trans (Cert.ReferenceIdeal.RefRead.kept_arg2 m' c), (h c _).trans (Cert.ReferenceIdeal.RefRead.kept_arg3 m' c),
       (h c _).trans (Cert.ReferenceIdeal.RefRead.kept_arg4 m' c), (h c _).trans (Cert.ReferenceIdeal.RefRead.kept_arg5 m' c),
       (h c _).trans (Cert.ReferenceIdeal.RefRead.kept_arg6 m' c), (h c _).trans (Cert.ReferenceIdeal.RefRead.kept_arg7 m' c)⟩)
      (Cert.ReferenceIdeal.ValueP.run (F := Ideal) m' ρ')
    rw [Cert.ReferenceIdeal.RefRead.result_eq m' c]
    obtain ⟨e0, e1, e2, e3, e4, e5, e6, e7⟩ := hagree c
    rw [e0, e1, e2, e3, e4, e5, e6, e7]
    exact Cert.Bridge.ref_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
